-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x128 : Shape := ⟨2, ![128, 128]⟩
abbrev S2x800000 : Shape := ⟨2, ![2, 800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x256 .f32) (main_arg1 : FVec F S256x128 .f32) (main_arg2 : FVec F S128 .f32) (main_arg3 : FVec F S128 .f32) (main_arg4 : FVec F S128 .f32) (main_arg5 : FVec F S128x128 .f32) (main_arg6 : FVec F S128 .f32) (main_arg7 : FVec F S128 .f32) (main_arg8 : FVec F S128 .f32) (main_arg9 : IVec S2x800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S50000x256 : Shape := ⟨2, ![50000, 256]⟩
abbrev S256x128 : Shape := ⟨2, ![256, 128]⟩
abbrev S128 : Shape := ⟨1, ![128]⟩
abbrev S128x128 : Shape := ⟨2, ![128, 128]⟩
abbrev S2x800000 : Shape := ⟨2, ![2, 800000]⟩
abbrev S1x800000 : Shape := ⟨2, ![1, 800000]⟩
abbrev S800000 : Shape := ⟨1, ![800000]⟩
abbrev S50000x128 : Shape := ⟨2, ![50000, 128]⟩
abbrev S2000x256 : Shape := ⟨2, ![2000, 256]⟩
abbrev S2000x128 : Shape := ⟨2, ![2000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 128
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S2x800000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x128, .f32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .f32⟩
  | .hbm, ⟨60, _⟩ => ⟨S850000x1, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000, .i32⟩
  | .hbm, ⟨73, _⟩ => ⟨S850000, .i32⟩
  | .hbm, ⟨74, _⟩ => ⟨S850000, .i32⟩
  | .hbm, ⟨75, _⟩ => ⟨S_, .f32⟩
  | .hbm, ⟨76, _⟩ => ⟨S850000, .f32⟩
  | .hbm, ⟨77, _⟩ => ⟨S_, .f32⟩
  | .hbm, ⟨78, _⟩ => ⟨S50000, .f32⟩
  | .hbm, ⟨79, _⟩ => ⟨S850000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .i1⟩
  | .hbm, ⟨84, _⟩ => ⟨S50000, .f32⟩
  | .hbm, ⟨85, _⟩ => ⟨S_, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000, .f32⟩
  | .hbm, ⟨107, _⟩ => ⟨S850000, .f32⟩
  | .hbm, ⟨108, _⟩ => ⟨S_, .i32⟩
  | .hbm, ⟨109, _⟩ => ⟨S850000, .i32⟩
  | .hbm, ⟨110, _⟩ => ⟨S850000, .i1⟩
  | .hbm, ⟨111, _⟩ => ⟨S_, .i32⟩
  | .hbm, ⟨112, _⟩ => ⟨S850000, .i32⟩
  | .hbm, ⟨113, _⟩ => ⟨S850000, .i32⟩
  | .hbm, ⟨114, _⟩ => ⟨S850000, .i32⟩
  | .hbm, ⟨115, _⟩ => ⟨S850000x1, .i32⟩
  | .hbm, ⟨116, _⟩ => ⟨S850000x128, .f32⟩
  | .hbm, ⟨117, _⟩ => ⟨S850000x1, .f32⟩
  | .hbm, ⟨118, _⟩ => ⟨S850000x128, .f32⟩
  | .hbm, ⟨119, _⟩ => ⟨S850000x128, .f32⟩
  | .hbm, ⟨120, _⟩ => ⟨S_, .f32⟩
  | .hbm, ⟨121, _⟩ => ⟨S50000x128, .f32⟩
  | .hbm, ⟨122, _⟩ => ⟨S850000x1, .i32⟩
  | .hbm, ⟨123, _⟩ => ⟨S50000x128, .f32⟩
  | .hbm, ⟨124, _⟩ => ⟨S1x128, .f32⟩
  | .hbm, ⟨125, _⟩ => ⟨S1x128, .f32⟩
  | .hbm, ⟨126, _⟩ => ⟨S1x128, .f32⟩
  | .hbm, ⟨127, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  dot_S2000x256_S256x128_S2000x128_1_0_0_1_n_n_wf : DotDims.WF S2000x256 S256x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v91) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x128 : Shape := ⟨2, ![128, 128]⟩
abbrev S2x800000 : Shape := ⟨2, ![2, 800000]⟩
abbrev S1x800000 : Shape := ⟨2, ![1, 800000]⟩
abbrev S800000 : Shape := ⟨1, ![800000]⟩
abbrev S50000x128 : Shape := ⟨2, ![50000, 128]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 215
  | .vmem => 0
  | .smem => 0
  | _ => 0

abbrev hbmTy0_0 (i : Nat) : BufTy := match i % 128 with
  | 0 => ⟨S50000x256, .f32⟩
  | 1 => ⟨S256x128, .f32⟩
  | 2 => ⟨S128, .f32⟩
  | 3 => ⟨S128, .f32⟩
  | 4 => ⟨S128, .f32⟩
  | 5 => ⟨S128x128, .f32⟩
  | 6 => ⟨S128, .f32⟩
  | 7 => ⟨S128, .f32⟩
  | 8 => ⟨S128, .f32⟩
  | 9 => ⟨S2x800000, .i32⟩
  | 10 => ⟨S1x800000, .i32⟩
  | 11 => ⟨S800000, .i32⟩
  | 12 => ⟨S1x800000, .i32⟩
  | 13 => ⟨S800000, .i32⟩
  | 14 => ⟨S50000x128, .f32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000, .f32⟩
  | 72 => ⟨S50000x1, .f32⟩
  | 73 => ⟨S_, .f32⟩
  | 74 => ⟨S50000x1, .f32⟩
  | 75 => ⟨S50000x1, .f32⟩
  | 76 => ⟨S50000x128, .f32⟩
  | 77 => ⟨S50000x128, .f32⟩
  | 78 => ⟨S50000x128, .f32⟩
  | 79 => ⟨S_, .f32⟩
  | 80 => ⟨S50000, .f32⟩
  | 81 => ⟨S50000x1, .f32⟩
  | 82 => ⟨S_, .f32⟩
  | 83 => ⟨S50000x1, .f32⟩
  | 84 => ⟨S50000x1, .f32⟩
  | 85 => ⟨S50000x128, .f32⟩
  | 86 => ⟨S50000x128, .f32⟩
  | 87 => ⟨S_, .f32⟩
  | 88 => ⟨S50000x1, .f32⟩
  | 89 => ⟨S50000x1, .f32⟩
  | 90 => ⟨S50000x1, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .i1⟩
  | 102 => ⟨S_, .f32⟩
  | 103 => ⟨S50000x128, .f32⟩
  | 104 => ⟨S50000x128, .i1⟩
  | 105 => ⟨S_, .f32⟩
  | 106 => ⟨S_, .f32⟩
  | 107 => ⟨S50000x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S50000x128, .f32⟩
  | 115 => ⟨S50000, .i32⟩
  | 116 => ⟨S850000, .i32⟩
  | 117 => ⟨S850000, .i32⟩
  | 118 => ⟨S_, .f32⟩
  | 119 => ⟨S850000, .f32⟩
  | 120 => ⟨S_, .f32⟩
  | 121 => ⟨S50000, .f32⟩
  | 122 => ⟨S850000x1, .i32⟩
  | 123 => ⟨S50000, .f32⟩
  | 124 => ⟨S_, .f32⟩
  | 125 => ⟨S50000, .f32⟩
  | 126 => ⟨S50000, .i1⟩
  | 127 => ⟨S50000, .f32⟩
  | _ => ⟨S50000x256, .f32⟩

abbrev hbmTy0_1 (i : Nat) : BufTy := match i % 128 with
  | 0 => ⟨S_, .f32⟩
  | 1 => ⟨S_, .f32⟩
  | 2 => ⟨S50000, .f32⟩
  | 3 => ⟨S50000, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000, .f32⟩
  | 22 => ⟨S850000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000x128, .f32⟩
  | 32 => ⟨S850000x1, .f32⟩
  | 33 => ⟨S850000x128, .f32⟩
  | 34 => ⟨S850000x128, .f32⟩
  | 35 => ⟨S_, .f32⟩
  | 36 => ⟨S50000x128, .f32⟩
  | 37 => ⟨S850000x1, .i32⟩
  | 38 => ⟨S50000x128, .f32⟩
  | 39 => ⟨S1x128, .f32⟩
  | 40 => ⟨S50000x128, .f32⟩
  | 41 => ⟨S50000x128, .f32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S50000x128, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S_, .f32⟩
  | 60 => ⟨S50000x1, .f32⟩
  | 61 => ⟨S50000x1, .f32⟩
  | 62 => ⟨S50000x1, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .i1⟩
  | 74 => ⟨S_, .f32⟩
  | 75 => ⟨S50000x128, .f32⟩
  | 76 => ⟨S50000x128, .i1⟩
  | 77 => ⟨S_, .f32⟩
  | 78 => ⟨S_, .f32⟩
  | 79 => ⟨S50000x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_cst_0 : Ref sig .tc := ⟨.hbm, 102, rfl⟩
abbrev main_call1_v2 : Ref sig .tc := ⟨.hbm, 103, rfl⟩
abbrev main_call1_v3 : Ref sig .tc := ⟨.hbm, 104, rfl⟩
abbrev main_call1_cst_1 : Ref sig .tc := ⟨.hbm, 105, rfl⟩
abbrev main_call1_call0_v0 : Ref sig .tc := ⟨.hbm, 106, rfl⟩
abbrev main_call1_call0_v1 : Ref sig .tc := ⟨.hbm, 107, rfl⟩
abbrev main_call1_v4 : Ref sig .tc := ⟨.hbm, 108, rfl⟩
abbrev main_call1_v5 : Ref sig .tc := ⟨.hbm, 109, rfl⟩
abbrev main_call1_cst_2 : Ref sig .tc := ⟨.hbm, 110, rfl⟩
abbrev main_call1_v6 : Ref sig .tc := ⟨.hbm, 111, rfl⟩
abbrev main_call1_v7 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_14 : Ref sig .tc := ⟨.hbm, 118, rfl⟩
abbrev main_v76 : Ref sig .tc := ⟨.hbm, 119, rfl⟩
abbrev main_cst_15 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_16 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_17 : Ref sig .tc := ⟨.hbm, 128, rfl⟩
abbrev main_call2_v0 : Ref sig .tc := ⟨.hbm, 129, rfl⟩
abbrev main_call2_v1 : Ref sig .tc := ⟨.hbm, 130, rfl⟩
abbrev main_v83 : Ref sig .tc := ⟨.hbm, 131, rfl⟩
abbrev main_c_18 : Ref sig .tc := ⟨.hbm, 132, rfl⟩
abbrev main_v84 : Ref sig .tc := ⟨.hbm, 133, rfl⟩
abbrev main_v85 : Ref sig .tc := ⟨.hbm, 134, rfl⟩
abbrev main_c_19 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_c_20 : Ref sig .tc := ⟨.hbm, 141, rfl⟩
abbrev main_v91 : Ref sig .tc := ⟨.hbm, 142, rfl⟩
abbrev main_v92 : Ref sig .tc := ⟨.hbm, 143, rfl⟩
abbrev main_c_21 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_c_22 : Ref sig .tc := ⟨.hbm, 151, rfl⟩
abbrev main_v99 : Ref sig .tc := ⟨.hbm, 152, rfl⟩
abbrev main_v100 : Ref sig .tc := ⟨.hbm, 153, rfl⟩
abbrev main_c_23 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_24 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_25 : Ref sig .tc := ⟨.hbm, 170, rfl⟩
abbrev main_v115 : Ref sig .tc := ⟨.hbm, 171, rfl⟩
abbrev main_v116 : Ref sig .tc := ⟨.hbm, 172, rfl⟩
abbrev main_cst_26 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_cst_27 : Ref sig .tc := ⟨.hbm, 179, rfl⟩
abbrev main_v122 : Ref sig .tc := ⟨.hbm, 180, rfl⟩
abbrev main_v123 : Ref sig .tc := ⟨.hbm, 181, rfl⟩
abbrev main_cst_28 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_29 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_call3_cst : Ref sig .tc := ⟨.hbm, 199, rfl⟩
abbrev main_call3_v0 : Ref sig .tc := ⟨.hbm, 200, rfl⟩
abbrev main_call3_v1 : Ref sig .tc := ⟨.hbm, 201, rfl⟩
abbrev main_call3_cst_0 : Ref sig .tc := ⟨.hbm, 202, rfl⟩
abbrev main_call3_v2 : Ref sig .tc := ⟨.hbm, 203, rfl⟩
abbrev main_call3_v3 : Ref sig .tc := ⟨.hbm, 204, rfl⟩
abbrev main_call3_cst_1 : Ref sig .tc := ⟨.hbm, 205, rfl⟩
abbrev main_call3_call0_v0 : Ref sig .tc := ⟨.hbm, 206, rfl⟩
abbrev main_call3_call0_v1 : Ref sig .tc := ⟨.hbm, 207, rfl⟩
abbrev main_call3_v4 : Ref sig .tc := ⟨.hbm, 208, rfl⟩
abbrev main_call3_v5 : Ref sig .tc := ⟨.hbm, 209, rfl⟩
abbrev main_call3_cst_2 : Ref sig .tc := ⟨.hbm, 210, rfl⟩
abbrev main_call3_v6 : Ref sig .tc := ⟨.hbm, 211, rfl⟩
abbrev main_call3_v7 : Ref sig .tc := ⟨.hbm, 212, rfl⟩
abbrev main_v139 : Ref sig .tc := ⟨.hbm, 213, rfl⟩
abbrev main_v140 : Ref sig .tc := ⟨.hbm, 214, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibTRef.lean ====
/-
  A typed reference carries a buffer together with the equation between the buffer's type and the value's type;
  contents are moved to the buffer's type and back along that equation. Moving there and back changes nothing.
-/
import Idealize.ShloMosaic.Lib.StableHlo

namespace Cert.LibTRef

open Idealize.ShloMosaic

/-- Contents carried to a typed reference's buffer and back are the contents. -/
theorem ofBuf_toBuf {sg : RefSig} {Vl : EltTy → Type} {T : BufTy} (x : StableHlo.TRef sg T) (v : T.Contents Vl) :
    x.ofBuf (x.toBuf v) = v := by
  obtain ⟨r, rfl, h1, h2⟩ := x
  rfl

end Cert.LibTRef
-- ==== Proof.RefStages.lean ====
/-
  The reference program's pure stages: the sparse symmetric-normalised aggregation of a two-layer graph convolution
  (self loops appended to the edge list, degrees by a scatter of ones, the factor d^(-1/2) at both ends of each edge,
  rows gathered, scaled and scattered to their targets), the bias, the row-wise layer normalisation and the ELU,
  each as one function of its operands; and the program's operation list cut at those stages.
-/
import proofs.«120394_j25486335934641_1_alg».proof.Proof.Gen.ReferenceIdeal
import proofs.«120394_j25486335934641_1_alg».proof.Proof.LibTRef
import Idealize.ShloMosaic.Lib.StableHlo.Run
import Idealize.ShloMosaic.Lib.Pipeline.Frame

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Row 0 of the edge table: the sources. -/
def srcOf (ei : (⟨S2x800000, .i32⟩ : BufTy).Contents (Elt F)) :
    (⟨S800000, .i32⟩ : BufTy).Contents (Elt F) :=
  (shapeCast S800000 (((extractStridedSlice S1x800000 ![0, 0] · slices_S2x800000_S1x800000_0_0) : (⟨S2x800000, .i32⟩ : BufTy).Contents (Elt F) → (⟨S1x800000, .i32⟩ : BufTy).Contents (Elt F)) ei) shapeCasts_S1x800000_S800000)

/-- Row 1 of the edge table: the targets. -/
def dstOf (ei : (⟨S2x800000, .i32⟩ : BufTy).Contents (Elt F)) :
    (⟨S800000, .i32⟩ : BufTy).Contents (Elt F) :=
  (shapeCast S800000 (((extractStridedSlice S1x800000 ![1, 0] · slices_S2x800000_S1x800000_1_0) : (⟨S2x800000, .i32⟩ : BufTy).Contents (Elt F) → (⟨S1x800000, .i32⟩ : BufTy).Contents (Elt F)) ei) shapeCasts_S1x800000_S800000)

/-- The first projection, a matrix product. -/
def dot1 (x0 : (⟨S50000x256, .f32⟩ : BufTy).Contents (Elt F)) (w : (⟨S256x128, .f32⟩ : BufTy).Contents (Elt F)) :
    (⟨S50000x128, .f32⟩ : BufTy).Contents (Elt F) :=
  (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) x0 w)

/-- The sources with one self loop per node appended. -/
def srcLoops (s : (⟨S800000, .i32⟩ : BufTy).Contents (Elt F)) :
    (⟨S850000, .i32⟩ : BufTy).Contents (Elt F) :=
  (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) s (iotaInDim S50000 32 0))

/-- The targets with one self loop per node appended. -/
def dstLoops (d : (⟨S800000, .i32⟩ : BufTy).Contents (Elt F)) :
    (⟨S850000, .i32⟩ : BufTy).Contents (Elt F) :=
  (((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) d (iotaInDim S50000 32 0))

/-- Degree to the power -1/2 where the degree is positive, else 0; the degree counts the edges arriving at a node. -/
def dinv (dF : (⟨S850000, .i32⟩ : BufTy).Contents (Elt F)) :
    (⟨S50000, .f32⟩ : BufTy).Contents (Elt F) :=
  (select ((cmpf .ogt : (⟨S50000, .f32⟩ : BufTy).Contents (Elt F) → (⟨S50000, .f32⟩ : BufTy).Contents (Elt F) → (⟨S50000, .i1⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S850000x1 ![0] bcast_S850000_S850000x1_0 : (⟨S850000, .i32⟩ : BufTy).Contents (Elt F) → (⟨S850000x1, .i32⟩ : BufTy).Contents (Elt F)) dF) ((broadcastInDim S850000 ![] bcast_S_S850000 : (⟨S_, .f32⟩ : BufTy).Contents (Elt F) → (⟨S850000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x00000000#32))) ((Host.rsqrt : (⟨S50000, .f32⟩ : BufTy).Contents (Elt F) → (⟨S50000, .f32⟩ : BufTy).Contents (Elt F)) (((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S850000x1 ![0] bcast_S850000_S850000x1_0 : (⟨S850000, .i32⟩ : BufTy).Contents (Elt F) → (⟨S850000x1, .i32⟩ : BufTy).Contents (Elt F)) dF) ((broadcastInDim S850000 ![] bcast_S_S850000 : (⟨S_, .f32⟩ : BufTy).Contents (Elt F) → (⟨S850000, .f32⟩ : BufTy).Contents (Elt F)) (constant S_ .f32 0x3F800000#32)))) ((broadcastInDim S50000 ![] bcast_S_S50000) (id (constant S_ .f32 0x00000000#32))))

/-- The factor of each edge: the two ends' degree factors multiplied; a negative position is first shifted by the number of nodes. -/
def edgeNorm (sF : (⟨S850000, .i32⟩ : BufTy).Contents (Elt F)) (dF : (⟨S850000, .i32⟩ : BufTy).Contents (Elt F)) :
    (⟨S850000, .f32⟩ : BufTy).Contents (Elt F) :=
  ((mulf : (⟨S850000, .f32⟩ : BufTy).Contents (Elt F) → (⟨S850000, .f32⟩ : BufTy).Contents (Elt F) → (⟨S850000, .f32⟩ : BufTy).Contents (Elt F)) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (dinv dF) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) sF ((broadcastInDim S850000 ![] bcast_S_S850000 : (⟨S_, .i32⟩ : BufTy).Contents (Elt F) → (⟨S850000, .i32⟩ : BufTy).Contents (Elt F)) (constantI S_ 32 0#32))) ((addi : (⟨S850000, .i32⟩ : BufTy).Contents (Elt F) → (⟨S850000, .i32⟩ : BufTy).Contents (Elt F) → (⟨S850000, .i32⟩ : BufTy).Contents (Elt F)) sF ((broadcastInDim S850000 ![] bcast_S_S850000 : (⟨S_, .i32⟩ : BufTy).Contents (Elt F) → (⟨S850000, .i32⟩ : BufTy).Contents (Elt F)) (constantI S_ 32 50000#32))) sF))) (((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) (dinv dF) ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) dF ((broadcastInDim S850000 ![] bcast_S_S850000 : (⟨S_, .i32⟩ : BufTy).Contents (Elt F) → (⟨S850000, .i32⟩ : BufTy).Contents (Elt F)) (constantI S_ 32 0#32))) ((addi : (⟨S850000, .i32⟩ : BufTy).Contents (Elt F) → (⟨S850000, .i32⟩ : BufTy).Contents (Elt F) → (⟨S850000, .i32⟩ : BufTy).Contents (Elt F)) dF ((broadcastInDim S850000 ![] bcast_S_S850000 : (⟨S_, .i32⟩ : BufTy).Contents (Elt F) → (⟨S850000, .i32⟩ : BufTy).Contents (Elt F)) (constantI S_ 32 50000#32))) dF))))

/-- The aggregation: each edge's source row, scaled by the edge's factor, summed into its target row. -/
def aggOf (h : (⟨S50000x128, .f32⟩ : BufTy).Contents (Elt F)) (s : (⟨S800000, .i32⟩ : BufTy).Contents (Elt F)) (d : (⟨S800000, .i32⟩ : BufTy).Contents (Elt F)) :
    (⟨S50000x128, .f32⟩ : BufTy).Contents (Elt F) :=
  (((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S850000x1 ![0] bcast_S850000_S850000x1_0 : (⟨S850000, .i32⟩ : BufTy).Contents (Elt F) → (⟨S850000x1, .i32⟩ : BufTy).Contents (Elt F)) (dstLoops d)) ((mulf : (⟨S850000x128, .f32⟩ : BufTy).Contents (Elt F) → (⟨S850000x128, .f32⟩ : BufTy).Contents (Elt F) → (⟨S850000x128, .f32⟩ : BufTy).Contents (Elt F)) (((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)) h ((broadcastInDim S850000x1 ![0] bcast_S850000_S850000x1_0 : (⟨S850000, .i32⟩ : BufTy).Contents (Elt F) → (⟨S850000x1, .i32⟩ : BufTy).Contents (Elt F)) ((select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ((cmpi .slt : (⟨S850000, .i32⟩ : BufTy).Contents (Elt F) → (⟨S850000, .i32⟩ : BufTy).Contents (Elt F) → (⟨S850000, .i1⟩ : BufTy).Contents (Elt F)) (srcLoops s) ((broadcastInDim S850000 ![] bcast_S_S850000 : (⟨S_, .i32⟩ : BufTy).Contents (Elt F) → (⟨S850000, .i32⟩ : BufTy).Contents (Elt F)) (constantI S_ 32 0#32))) ((addi : (⟨S850000, .i32⟩ : BufTy).Contents (Elt F) → (⟨S850000, .i32⟩ : BufTy).Contents (Elt F) → (⟨S850000, .i32⟩ : BufTy).Contents (Elt F)) (srcLoops s) ((broadcastInDim S850000 ![] bcast_S_S850000 : (⟨S_, .i32⟩ : BufTy).Contents (Elt F) → (⟨S850000, .i32⟩ : BufTy).Contents (Elt F)) (constantI S_ 32 50000#32))) (srcLoops s)))) ((broadcastInDim S850000x128 ![0, 1] bcast_S850000x1_S850000x128_0_1 : (⟨S850000x1, .f32⟩ : BufTy).Contents (Elt F) → (⟨S850000x128, .f32⟩ : BufTy).Contents (Elt F)) ((broadcastInDim S850000x1 ![0] bcast_S850000_S850000x1_0 : (⟨S850000, .f32⟩ : BufTy).Contents (Elt F) → (⟨S850000x1, .f32⟩ : BufTy).Contents (Elt F)) (edgeNorm (srcLoops s) (dstLoops d))))))

/-- A bias row added to every row. -/
def biased (a : (⟨S50000x128, .f32⟩ : BufTy).Contents (Elt F)) (b : (⟨S128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) a ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) b)))

/-- The mean of each row, kept as a column. -/
def rowMean (v : (⟨S50000x128, .f32⟩ : BufTy).Contents (Elt F)) :
    (⟨S50000x1, .f32⟩ : BufTy).Contents (Elt F) :=
  ((Host.divf : (⟨S50000x1, .f32⟩ : BufTy).Contents (Elt F) → (⟨S50000x1, .f32⟩ : BufTy).Contents (Elt F) → (⟨S50000x1, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) v (constant S_ .f32 0x00000000#32))) ((broadcastInDim S50000x1 ![] bcast_S_S50000x1 : (⟨S_, .f32⟩ : BufTy).Contents (Elt F) → (⟨S50000x1, .f32⟩ : BufTy).Contents (Elt F)) (constant S_ .f32 0x43000000#32)))

/-- One over the square root of each row's variance plus epsilon, kept as a column. -/
def rowRstd (v : (⟨S50000x128, .f32⟩ : BufTy).Contents (Elt F)) :
    (⟨S50000x1, .f32⟩ : BufTy).Contents (Elt F) :=
  ((Host.rsqrt : (⟨S50000x1, .f32⟩ : BufTy).Contents (Elt F) → (⟨S50000x1, .f32⟩ : BufTy).Contents (Elt F)) ((addf : (⟨S50000x1, .f32⟩ : BufTy).Contents (Elt F) → (⟨S50000x1, .f32⟩ : BufTy).Contents (Elt F) → (⟨S50000x1, .f32⟩ : BufTy).Contents (Elt F)) ((Host.divf : (⟨S50000x1, .f32⟩ : BufTy).Contents (Elt F) → (⟨S50000x1, .f32⟩ : BufTy).Contents (Elt F) → (⟨S50000x1, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) v ((broadcastInDim S50000x128 ![0, 1] bcast_S50000x1_S50000x128_0_1 : (⟨S50000x1, .f32⟩ : BufTy).Contents (Elt F) → (⟨S50000x128, .f32⟩ : BufTy).Contents (Elt F)) (rowMean v))) ((subf : (⟨S50000x128, .f32⟩ : BufTy).Contents (Elt F) → (⟨S50000x128, .f32⟩ : BufTy).Contents (Elt F) → (⟨S50000x128, .f32⟩ : BufTy).Contents (Elt F)) v ((broadcastInDim S50000x128 ![0, 1] bcast_S50000x1_S50000x128_0_1 : (⟨S50000x1, .f32⟩ : BufTy).Contents (Elt F) → (⟨S50000x128, .f32⟩ : BufTy).Contents (Elt F)) (rowMean v)))) (constant S_ .f32 0x00000000#32))) ((broadcastInDim S50000x1 ![] bcast_S_S50000x1 : (⟨S_, .f32⟩ : BufTy).Contents (Elt F) → (⟨S50000x1, .f32⟩ : BufTy).Contents (Elt F)) (constant S_ .f32 0x43000000#32))) ((broadcastInDim S50000x1 ![] bcast_S_S50000x1 : (⟨S_, .f32⟩ : BufTy).Contents (Elt F) → (⟨S50000x1, .f32⟩ : BufTy).Contents (Elt F)) (constant S_ .f32 0x3727C5AC#32))))

/-- The normalised rows, scaled and shifted by the two parameter rows. -/
def normed (v : (⟨S50000x128, .f32⟩ : BufTy).Contents (Elt F)) (g : (⟨S128, .f32⟩ : BufTy).Contents (Elt F)) (be : (⟨S128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) v ((broadcastInDim S50000x128 ![0, 1] bcast_S50000x1_S50000x128_0_1 : (⟨S50000x1, .f32⟩ : BufTy).Contents (Elt F) → (⟨S50000x128, .f32⟩ : BufTy).Contents (Elt F)) (rowMean v))) ((broadcastInDim S50000x128 ![0, 1] bcast_S50000x1_S50000x128_0_1 : (⟨S50000x1, .f32⟩ : BufTy).Contents (Elt F) → (⟨S50000x128, .f32⟩ : BufTy).Contents (Elt F)) (rowRstd v))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) g))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) be)))

/-- ELU: x where x > 0, else 1 · (exp (x') - 1) with x' the value x where x ≤ 0 and 0 elsewhere. -/
def eluOf (x : (⟨S50000x128, .f32⟩ : BufTy).Contents (Elt F)) :
    (⟨S50000x128, .f32⟩ : BufTy).Contents (Elt F) :=
  (select ((cmpf .ogt) x ((broadcastInDim S50000x128 ![] bcast_S_S50000x128) (constant S_ .f32 0x00000000#32))) x (mulf ((broadcastInDim S50000x128 ![] bcast_S_S50000x128) (constant S_ .f32 0x3F800000#32)) (Host.expm1 (select ((cmpf .ogt) x ((broadcastInDim S50000x128 ![] bcast_S_S50000x128) (constant S_ .f32 0x00000000#32))) ((broadcastInDim S50000x128 ![] bcast_S_S50000x128) (id (constant S_ .f32 0x00000000#32))) x))))

/-- The second projection, a matrix product. -/
def dot2 (x0 : (⟨S50000x128, .f32⟩ : BufTy).Contents (Elt F)) (w : (⟨S128x128, .f32⟩ : BufTy).Contents (Elt F)) :
    (⟨S50000x128, .f32⟩ : BufTy).Contents (Elt F) :=
  (((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) x0 w)

/-- Bias, layer normalisation, ELU: one layer's dense tail. -/
def lnelu (a : (⟨S50000x128, .f32⟩ : BufTy).Contents (Elt F)) (b g be : (⟨S128, .f32⟩ : BufTy).Contents (Elt F)) : (⟨S50000x128, .f32⟩ : BufTy).Contents (Elt F) :=
  eluOf (normed (biased a b) g be)

/-- The first layer. -/
def layer1 (x0 : (⟨S50000x256, .f32⟩ : BufTy).Contents (Elt F)) (w : (⟨S256x128, .f32⟩ : BufTy).Contents (Elt F)) (b g be : (⟨S128, .f32⟩ : BufTy).Contents (Elt F)) (s d : (⟨S800000, .i32⟩ : BufTy).Contents (Elt F)) : (⟨S50000x128, .f32⟩ : BufTy).Contents (Elt F) :=
  lnelu (aggOf (dot1 x0 w) s d) b g be

/-- The second layer, with the residual. -/
def layer2 (h1 : (⟨S50000x128, .f32⟩ : BufTy).Contents (Elt F)) (w : (⟨S128x128, .f32⟩ : BufTy).Contents (Elt F)) (b g be : (⟨S128, .f32⟩ : BufTy).Contents (Elt F)) (s d : (⟨S800000, .i32⟩ : BufTy).Contents (Elt F)) : (⟨S50000x128, .f32⟩ : BufTy).Contents (Elt F) :=
  addf (lnelu (aggOf (dot2 h1 w) s d) b g be) h1

/-- Operations 1 to 57 of the program. -/
abbrev segP : List (HloOp τ sig (Elt F)) :=
  [ StableHlo.unary main_arg9 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg9 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg1 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_v5 (iotaInDim S50000 32 0),
    StableHlo.binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.unary main_v11 main_v14 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S50000 ![] bcast_S_S50000),
    StableHlo.TRef.ternary (.of main_v13) (.of main_v14) main_call0.v1 main_call0.v2 select,
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v6 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v6 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v7 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v7 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v6 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v6 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v4 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v30 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v37 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v7 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- Operations 58 to 104 of the program. -/
abbrev segD : List (HloOp τ sig (Elt F)) :=
  [ StableHlo.unary main_arg2 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.binary main_v46 main_cst_9 main_v47 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.nullary main_cst_10 (constant S_ .f32 0x43000000#32),
    StableHlo.unary main_cst_10 main_v49 (broadcastInDim S50000x1 ![] bcast_S_S50000x1 : (⟨S_, .f32⟩ : BufTy).Contents (Elt F) → (⟨S50000x1, .f32⟩ : BufTy).Contents (Elt F)),
    StableHlo.binary main_v48 main_v49 main_v50 (Host.divf : (⟨S50000x1, .f32⟩ : BufTy).Contents (Elt F) → (⟨S50000x1, .f32⟩ : BufTy).Contents (Elt F) → (⟨S50000x1, .f32⟩ : BufTy).Contents (Elt F)),
    StableHlo.unary main_v50 main_v51 (broadcastInDim S50000x128 ![0, 1] bcast_S50000x1_S50000x128_0_1 : (⟨S50000x1, .f32⟩ : BufTy).Contents (Elt F) → (⟨S50000x128, .f32⟩ : BufTy).Contents (Elt F)),
    StableHlo.binary main_v46 main_v51 main_v52 (subf : (⟨S50000x128, .f32⟩ : BufTy).Contents (Elt F) → (⟨S50000x128, .f32⟩ : BufTy).Contents (Elt F) → (⟨S50000x128, .f32⟩ : BufTy).Contents (Elt F)),
    StableHlo.binary main_v52 main_v52 main_v53 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.binary main_v53 main_cst_11 main_v54 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v54 main_v55 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x43000000#32),
    StableHlo.unary main_cst_12 main_v56 (broadcastInDim S50000x1 ![] bcast_S_S50000x1 : (⟨S_, .f32⟩ : BufTy).Contents (Elt F) → (⟨S50000x1, .f32⟩ : BufTy).Contents (Elt F)),
    StableHlo.binary main_v55 main_v56 main_v57 (Host.divf : (⟨S50000x1, .f32⟩ : BufTy).Contents (Elt F) → (⟨S50000x1, .f32⟩ : BufTy).Contents (Elt F) → (⟨S50000x1, .f32⟩ : BufTy).Contents (Elt F)),
    StableHlo.unary main_v50 main_v58 (broadcastInDim S50000x128 ![0, 1] bcast_S50000x1_S50000x128_0_1 : (⟨S50000x1, .f32⟩ : BufTy).Contents (Elt F) → (⟨S50000x128, .f32⟩ : BufTy).Contents (Elt F)),
    StableHlo.binary main_v46 main_v58 main_v59 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v60 (broadcastInDim S50000x1 ![] bcast_S_S50000x1 : (⟨S_, .f32⟩ : BufTy).Contents (Elt F) → (⟨S50000x1, .f32⟩ : BufTy).Contents (Elt F)),
    StableHlo.binary main_v57 main_v60 main_v61 (addf : (⟨S50000x1, .f32⟩ : BufTy).Contents (Elt F) → (⟨S50000x1, .f32⟩ : BufTy).Contents (Elt F) → (⟨S50000x1, .f32⟩ : BufTy).Contents (Elt F)),
    StableHlo.unary main_v61 main_v62 (Host.rsqrt : (⟨S50000x1, .f32⟩ : BufTy).Contents (Elt F) → (⟨S50000x1, .f32⟩ : BufTy).Contents (Elt F)),
    StableHlo.unary main_v62 main_v63 (broadcastInDim S50000x128 ![0, 1] bcast_S50000x1_S50000x128_0_1 : (⟨S50000x1, .f32⟩ : BufTy).Contents (Elt F) → (⟨S50000x128, .f32⟩ : BufTy).Contents (Elt F)),
    StableHlo.binary main_v59 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg3 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_arg4 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v70) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v70) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v70) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v70) main_call1.v7 main_call1.call1.v0 select ]

/-- Operations 105 to 157 of the program. -/
abbrev segQ : List (HloOp τ sig (Elt F)) :=
  [ StableHlo.binary main_v71 main_arg5 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v73 (iotaInDim S50000 32 0),
    StableHlo.binary main_v1 main_v73 main_v74 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v73 main_v75 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_14 (constant S_ .f32 0x3F800000#32),
    StableHlo.unary main_cst_14 main_v76 (broadcastInDim S850000 ![] bcast_S_S850000 : (⟨S_, .f32⟩ : BufTy).Contents (Elt F) → (⟨S850000, .f32⟩ : BufTy).Contents (Elt F)),
    StableHlo.nullary main_cst_15 (constant S_ .f32 0x00000000#32),
    StableHlo.unary main_cst_15 main_v77 (broadcastInDim S50000 ![] bcast_S_S50000 : (⟨S_, .f32⟩ : BufTy).Contents (Elt F) → (⟨S50000, .f32⟩ : BufTy).Contents (Elt F)),
    StableHlo.unary main_v75 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_16 (constant S_ .f32 0x00000000#32),
    StableHlo.unary main_cst_16 main_v80 (broadcastInDim S50000 ![] bcast_S_S50000 : (⟨S_, .f32⟩ : BufTy).Contents (Elt F) → (⟨S50000, .f32⟩ : BufTy).Contents (Elt F)),
    StableHlo.binary main_v79 main_v80 main_v81 (cmpf .ogt : (⟨S50000, .f32⟩ : BufTy).Contents (Elt F) → (⟨S50000, .f32⟩ : BufTy).Contents (Elt F) → (⟨S50000, .i1⟩ : BufTy).Contents (Elt F)),
    StableHlo.unary main_v79 main_v82 (Host.rsqrt : (⟨S50000, .f32⟩ : BufTy).Contents (Elt F) → (⟨S50000, .f32⟩ : BufTy).Contents (Elt F)),
    StableHlo.nullary main_cst_17 (constant S_ .f32 0x00000000#32),
    StableHlo.TRef.unary (.of main_cst_17) main_call2.v0 id,
    StableHlo.TRef.unary main_call2.v0 main_call2.v1 (broadcastInDim S50000 ![] bcast_S_S50000),
    StableHlo.TRef.ternary (.of main_v81) (.of main_v82) main_call2.v1 main_call2.v2 select,
    StableHlo.nullary main_c_18 (constantI S_ 32 0#32),
    StableHlo.unary main_c_18 main_v84 (broadcastInDim S850000 ![] bcast_S_S850000 : (⟨S_, .i32⟩ : BufTy).Contents (Elt F) → (⟨S850000, .i32⟩ : BufTy).Contents (Elt F)),
    StableHlo.binary main_v74 main_v84 main_v85 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v86 (broadcastInDim S850000 ![] bcast_S_S850000 : (⟨S_, .i32⟩ : BufTy).Contents (Elt F) → (⟨S850000, .i32⟩ : BufTy).Contents (Elt F)),
    StableHlo.binary main_v74 main_v86 main_v87 (addi : (⟨S850000, .i32⟩ : BufTy).Contents (Elt F) → (⟨S850000, .i32⟩ : BufTy).Contents (Elt F) → (⟨S850000, .i32⟩ : BufTy).Contents (Elt F)),
    StableHlo.ternary main_v85 main_v87 main_v74 main_v88 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v88 main_v89 (broadcastInDim S850000x1 ![0] bcast_S850000_S850000x1_0 : (⟨S850000, .i32⟩ : BufTy).Contents (Elt F) → (⟨S850000x1, .i32⟩ : BufTy).Contents (Elt F)),
    StableHlo.binary main_v83 main_v89 main_v90 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_20 (constantI S_ 32 0#32),
    StableHlo.unary main_c_20 main_v91 (broadcastInDim S850000 ![] bcast_S_S850000 : (⟨S_, .i32⟩ : BufTy).Contents (Elt F) → (⟨S850000, .i32⟩ : BufTy).Contents (Elt F)),
    StableHlo.binary main_v75 main_v91 main_v92 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v93 (broadcastInDim S850000 ![] bcast_S_S850000 : (⟨S_, .i32⟩ : BufTy).Contents (Elt F) → (⟨S850000, .i32⟩ : BufTy).Contents (Elt F)),
    StableHlo.binary main_v75 main_v93 main_v94 (addi : (⟨S850000, .i32⟩ : BufTy).Contents (Elt F) → (⟨S850000, .i32⟩ : BufTy).Contents (Elt F) → (⟨S850000, .i32⟩ : BufTy).Contents (Elt F)),
    StableHlo.ternary main_v92 main_v94 main_v75 main_v95 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v95 main_v96 (broadcastInDim S850000x1 ![0] bcast_S850000_S850000x1_0 : (⟨S850000, .i32⟩ : BufTy).Contents (Elt F) → (⟨S850000x1, .i32⟩ : BufTy).Contents (Elt F)),
    StableHlo.binary main_v83 main_v96 main_v97 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v90 main_v97 main_v98 (mulf : (⟨S850000, .f32⟩ : BufTy).Contents (Elt F) → (⟨S850000, .f32⟩ : BufTy).Contents (Elt F) → (⟨S850000, .f32⟩ : BufTy).Contents (Elt F)),
    StableHlo.nullary main_c_22 (constantI S_ 32 0#32),
    StableHlo.unary main_c_22 main_v99 (broadcastInDim S850000 ![] bcast_S_S850000 : (⟨S_, .i32⟩ : BufTy).Contents (Elt F) → (⟨S850000, .i32⟩ : BufTy).Contents (Elt F)),
    StableHlo.binary main_v74 main_v99 main_v100 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v101 (broadcastInDim S850000 ![] bcast_S_S850000 : (⟨S_, .i32⟩ : BufTy).Contents (Elt F) → (⟨S850000, .i32⟩ : BufTy).Contents (Elt F)),
    StableHlo.binary main_v74 main_v101 main_v102 (addi : (⟨S850000, .i32⟩ : BufTy).Contents (Elt F) → (⟨S850000, .i32⟩ : BufTy).Contents (Elt F) → (⟨S850000, .i32⟩ : BufTy).Contents (Elt F)),
    StableHlo.ternary main_v100 main_v102 main_v74 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v103 main_v104 (broadcastInDim S850000x1 ![0] bcast_S850000_S850000x1_0 : (⟨S850000, .i32⟩ : BufTy).Contents (Elt F) → (⟨S850000x1, .i32⟩ : BufTy).Contents (Elt F)),
    StableHlo.binary main_v72 main_v104 main_v105 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v98 main_v106 (broadcastInDim S850000x1 ![0] bcast_S850000_S850000x1_0 : (⟨S850000, .f32⟩ : BufTy).Contents (Elt F) → (⟨S850000x1, .f32⟩ : BufTy).Contents (Elt F)),
    StableHlo.unary main_v106 main_v107 (broadcastInDim S850000x128 ![0, 1] bcast_S850000x1_S850000x128_0_1 : (⟨S850000x1, .f32⟩ : BufTy).Contents (Elt F) → (⟨S850000x128, .f32⟩ : BufTy).Contents (Elt F)),
    StableHlo.binary main_v105 main_v107 main_v108 (mulf : (⟨S850000x128, .f32⟩ : BufTy).Contents (Elt F) → (⟨S850000x128, .f32⟩ : BufTy).Contents (Elt F) → (⟨S850000x128, .f32⟩ : BufTy).Contents (Elt F)),
    StableHlo.nullary main_cst_24 (constant S_ .f32 0x00000000#32),
    StableHlo.unary main_cst_24 main_v109 (broadcastInDim S50000x128 ![] bcast_S_S50000x128 : (⟨S_, .f32⟩ : BufTy).Contents (Elt F) → (⟨S50000x128, .f32⟩ : BufTy).Contents (Elt F)),
    StableHlo.unary main_v75 main_v110 (broadcastInDim S850000x1 ![0] bcast_S850000_S850000x1_0 : (⟨S850000, .i32⟩ : BufTy).Contents (Elt F) → (⟨S850000x1, .i32⟩ : BufTy).Contents (Elt F)),
    StableHlo.ternary main_v109 main_v110 main_v108 main_v111 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- Operations 158 to 204 of the program. -/
abbrev segG : List (HloOp τ sig (Elt F)) :=
  [ StableHlo.unary main_arg6 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v113 main_v114 (addf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x00000000#32),
    StableHlo.binary main_v114 main_cst_25 main_v115 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v115 main_v116 (broadcastInDim S50000x1 ![0] bcast_S50000_S50000x1_0 : (⟨S50000, .f32⟩ : BufTy).Contents (Elt F) → (⟨S50000x1, .f32⟩ : BufTy).Contents (Elt F)),
    StableHlo.nullary main_cst_26 (constant S_ .f32 0x43000000#32),
    StableHlo.unary main_cst_26 main_v117 (broadcastInDim S50000x1 ![] bcast_S_S50000x1 : (⟨S_, .f32⟩ : BufTy).Contents (Elt F) → (⟨S50000x1, .f32⟩ : BufTy).Contents (Elt F)),
    StableHlo.binary main_v116 main_v117 main_v118 (Host.divf : (⟨S50000x1, .f32⟩ : BufTy).Contents (Elt F) → (⟨S50000x1, .f32⟩ : BufTy).Contents (Elt F) → (⟨S50000x1, .f32⟩ : BufTy).Contents (Elt F)),
    StableHlo.unary main_v118 main_v119 (broadcastInDim S50000x128 ![0, 1] bcast_S50000x1_S50000x128_0_1 : (⟨S50000x1, .f32⟩ : BufTy).Contents (Elt F) → (⟨S50000x128, .f32⟩ : BufTy).Contents (Elt F)),
    StableHlo.binary main_v114 main_v119 main_v120 (subf : (⟨S50000x128, .f32⟩ : BufTy).Contents (Elt F) → (⟨S50000x128, .f32⟩ : BufTy).Contents (Elt F) → (⟨S50000x128, .f32⟩ : BufTy).Contents (Elt F)),
    StableHlo.binary main_v120 main_v120 main_v121 (mulf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x00000000#32),
    StableHlo.binary main_v121 main_cst_27 main_v122 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v122 main_v123 (broadcastInDim S50000x1 ![0] bcast_S50000_S50000x1_0 : (⟨S50000, .f32⟩ : BufTy).Contents (Elt F) → (⟨S50000x1, .f32⟩ : BufTy).Contents (Elt F)),
    StableHlo.nullary main_cst_28 (constant S_ .f32 0x43000000#32),
    StableHlo.unary main_cst_28 main_v124 (broadcastInDim S50000x1 ![] bcast_S_S50000x1 : (⟨S_, .f32⟩ : BufTy).Contents (Elt F) → (⟨S50000x1, .f32⟩ : BufTy).Contents (Elt F)),
    StableHlo.binary main_v123 main_v124 main_v125 (Host.divf : (⟨S50000x1, .f32⟩ : BufTy).Contents (Elt F) → (⟨S50000x1, .f32⟩ : BufTy).Contents (Elt F) → (⟨S50000x1, .f32⟩ : BufTy).Contents (Elt F)),
    StableHlo.unary main_v118 main_v126 (broadcastInDim S50000x128 ![0, 1] bcast_S50000x1_S50000x128_0_1 : (⟨S50000x1, .f32⟩ : BufTy).Contents (Elt F) → (⟨S50000x128, .f32⟩ : BufTy).Contents (Elt F)),
    StableHlo.binary main_v114 main_v126 main_v127 (subf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v128 (broadcastInDim S50000x1 ![] bcast_S_S50000x1 : (⟨S_, .f32⟩ : BufTy).Contents (Elt F) → (⟨S50000x1, .f32⟩ : BufTy).Contents (Elt F)),
    StableHlo.binary main_v125 main_v128 main_v129 (addf : (⟨S50000x1, .f32⟩ : BufTy).Contents (Elt F) → (⟨S50000x1, .f32⟩ : BufTy).Contents (Elt F) → (⟨S50000x1, .f32⟩ : BufTy).Contents (Elt F)),
    StableHlo.unary main_v129 main_v130 (Host.rsqrt : (⟨S50000x1, .f32⟩ : BufTy).Contents (Elt F) → (⟨S50000x1, .f32⟩ : BufTy).Contents (Elt F)),
    StableHlo.unary main_v130 main_v131 (broadcastInDim S50000x128 ![0, 1] bcast_S50000x1_S50000x128_0_1 : (⟨S50000x1, .f32⟩ : BufTy).Contents (Elt F) → (⟨S50000x128, .f32⟩ : BufTy).Contents (Elt F)),
    StableHlo.binary main_v127 main_v131 main_v132 (mulf : (⟨S50000x128, .f32⟩ : BufTy).Contents (Elt F) → (⟨S50000x128, .f32⟩ : BufTy).Contents (Elt F) → (⟨S50000x128, .f32⟩ : BufTy).Contents (Elt F)),
    StableHlo.unary main_arg7 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v134 main_v135 (mulf : (⟨S50000x128, .f32⟩ : BufTy).Contents (Elt F) → (⟨S50000x128, .f32⟩ : BufTy).Contents (Elt F) → (⟨S50000x128, .f32⟩ : BufTy).Contents (Elt F)),
    StableHlo.unary main_arg8 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v137 main_v138 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v138) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v138) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v138) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v138) main_call3.v7 main_call3.call1.v0 select ]

/-- Operations 205 to 205 of the program. -/
abbrev segH : List (HloOp τ sig (Elt F)) :=
  [ StableHlo.binary main_v139 main_v71 main_v140 (addf : (⟨S50000x128, .f32⟩ : BufTy).Contents (Elt F) → (⟨S50000x128, .f32⟩ : BufTy).Contents (Elt F) → (⟨S50000x128, .f32⟩ : BufTy).Contents (Elt F)) ]

/-! ## Each stretch of operations read at the buffers later stretches use -/

/-- The result buffer of a stretch is its stage function of the contents the stretch was entered with. -/
macro "stage_value" : tactic => `(tactic| (after_results_simp; (try simp only [Cert.LibTRef.ofBuf_toBuf]); (try rfl)))
/-- A buffer no operation of the stretch writes keeps its contents. -/
macro "stage_keeps" : tactic => `(tactic| (first | (after_results_simp; done) | (after_results_simp; rfl)))

theorem segP_v43 (W : Valuation τ sig (Elt F)) :
    after segP W (main_v43 : DevRef τ sig) = aggOf (dot1 (W (main_arg0 : DevRef τ sig)) (W (main_arg1 : DevRef τ sig))) (srcOf (W (main_arg9 : DevRef τ sig))) (dstOf (W (main_arg9 : DevRef τ sig))) := by
  stage_value
theorem segP_v1 (W : Valuation τ sig (Elt F)) :
    after segP W (main_v1 : DevRef τ sig) = srcOf (W (main_arg9 : DevRef τ sig)) := by
  stage_value
theorem segP_v3 (W : Valuation τ sig (Elt F)) :
    after segP W (main_v3 : DevRef τ sig) = dstOf (W (main_arg9 : DevRef τ sig)) := by
  stage_value
theorem segP_keeps_arg2 (W : Valuation τ sig (Elt F)) :
    after segP W (main_arg2 : DevRef τ sig) = W (main_arg2 : DevRef τ sig) := by
  stage_keeps
theorem segP_keeps_arg3 (W : Valuation τ sig (Elt F)) :
    after segP W (main_arg3 : DevRef τ sig) = W (main_arg3 : DevRef τ sig) := by
  stage_keeps
theorem segP_keeps_arg4 (W : Valuation τ sig (Elt F)) :
    after segP W (main_arg4 : DevRef τ sig) = W (main_arg4 : DevRef τ sig) := by
  stage_keeps
theorem segP_keeps_arg5 (W : Valuation τ sig (Elt F)) :
    after segP W (main_arg5 : DevRef τ sig) = W (main_arg5 : DevRef τ sig) := by
  stage_keeps
theorem segP_keeps_arg6 (W : Valuation τ sig (Elt F)) :
    after segP W (main_arg6 : DevRef τ sig) = W (main_arg6 : DevRef τ sig) := by
  stage_keeps
theorem segP_keeps_arg7 (W : Valuation τ sig (Elt F)) :
    after segP W (main_arg7 : DevRef τ sig) = W (main_arg7 : DevRef τ sig) := by
  stage_keeps
theorem segP_keeps_arg8 (W : Valuation τ sig (Elt F)) :
    after segP W (main_arg8 : DevRef τ sig) = W (main_arg8 : DevRef τ sig) := by
  stage_keeps
theorem segD_v71 (W : Valuation τ sig (Elt F)) :
    after segD W (main_v71 : DevRef τ sig) = lnelu (W (main_v43 : DevRef τ sig)) (W (main_arg2 : DevRef τ sig)) (W (main_arg3 : DevRef τ sig)) (W (main_arg4 : DevRef τ sig)) := by
  stage_value
theorem segD_keeps_v1 (W : Valuation τ sig (Elt F)) :
    after segD W (main_v1 : DevRef τ sig) = W (main_v1 : DevRef τ sig) := by
  stage_keeps
theorem segD_keeps_v3 (W : Valuation τ sig (Elt F)) :
    after segD W (main_v3 : DevRef τ sig) = W (main_v3 : DevRef τ sig) := by
  stage_keeps
theorem segD_keeps_arg5 (W : Valuation τ sig (Elt F)) :
    after segD W (main_arg5 : DevRef τ sig) = W (main_arg5 : DevRef τ sig) := by
  stage_keeps
theorem segD_keeps_arg6 (W : Valuation τ sig (Elt F)) :
    after segD W (main_arg6 : DevRef τ sig) = W (main_arg6 : DevRef τ sig) := by
  stage_keeps
theorem segD_keeps_arg7 (W : Valuation τ sig (Elt F)) :
    after segD W (main_arg7 : DevRef τ sig) = W (main_arg7 : DevRef τ sig) := by
  stage_keeps
theorem segD_keeps_arg8 (W : Valuation τ sig (Elt F)) :
    after segD W (main_arg8 : DevRef τ sig) = W (main_arg8 : DevRef τ sig) := by
  stage_keeps
theorem segQ_v111 (W : Valuation τ sig (Elt F)) :
    after segQ W (main_v111 : DevRef τ sig) = aggOf (dot2 (W (main_v71 : DevRef τ sig)) (W (main_arg5 : DevRef τ sig))) (W (main_v1 : DevRef τ sig)) (W (main_v3 : DevRef τ sig)) := by
  stage_value
theorem segQ_keeps_v71 (W : Valuation τ sig (Elt F)) :
    after segQ W (main_v71 : DevRef τ sig) = W (main_v71 : DevRef τ sig) := by
  stage_keeps
theorem segQ_keeps_arg6 (W : Valuation τ sig (Elt F)) :
    after segQ W (main_arg6 : DevRef τ sig) = W (main_arg6 : DevRef τ sig) := by
  stage_keeps
theorem segQ_keeps_arg7 (W : Valuation τ sig (Elt F)) :
    after segQ W (main_arg7 : DevRef τ sig) = W (main_arg7 : DevRef τ sig) := by
  stage_keeps
theorem segQ_keeps_arg8 (W : Valuation τ sig (Elt F)) :
    after segQ W (main_arg8 : DevRef τ sig) = W (main_arg8 : DevRef τ sig) := by
  stage_keeps
theorem segG_v139 (W : Valuation τ sig (Elt F)) :
    after segG W (main_v139 : DevRef τ sig) = lnelu (W (main_v111 : DevRef τ sig)) (W (main_arg6 : DevRef τ sig)) (W (main_arg7 : DevRef τ sig)) (W (main_arg8 : DevRef τ sig)) := by
  stage_value
theorem segG_keeps_v71 (W : Valuation τ sig (Elt F)) :
    after segG W (main_v71 : DevRef τ sig) = W (main_v71 : DevRef τ sig) := by
  stage_keeps
theorem segH_v140 (W : Valuation τ sig (Elt F)) :
    after segH W (main_v140 : DevRef τ sig) = addf (W (main_v139 : DevRef τ sig)) (W (main_v71 : DevRef τ sig)) := by
  stage_value

/-- The program's result: the two layers composed, over the launch contents of the arguments. -/
theorem result_eq (V : Valuation τ sig (Elt F)) :
    after (segP ++ (segD ++ (segQ ++ (segG ++ segH)))) V (main_v140 : DevRef τ sig)
      = layer2 (layer1 (V (main_arg0 : DevRef τ sig)) (V (main_arg1 : DevRef τ sig)) (V (main_arg2 : DevRef τ sig)) (V (main_arg3 : DevRef τ sig)) (V (main_arg4 : DevRef τ sig)) (srcOf (V (main_arg9 : DevRef τ sig))) (dstOf (V (main_arg9 : DevRef τ sig))))
          (V (main_arg5 : DevRef τ sig)) (V (main_arg6 : DevRef τ sig)) (V (main_arg7 : DevRef τ sig)) (V (main_arg8 : DevRef τ sig)) (srcOf (V (main_arg9 : DevRef τ sig))) (dstOf (V (main_arg9 : DevRef τ sig))) := by
  rw [after_append, after_append, after_append, after_append]
  rw [segH_v140, segG_v139, segG_keeps_v71]
  rw [segQ_v111, segQ_keeps_arg6, segQ_keeps_arg7, segQ_keeps_arg8, segQ_keeps_v71]
  rw [segD_v71, segD_keeps_arg5, segD_keeps_v1, segD_keeps_v3, segD_keeps_arg6, segD_keeps_arg7, segD_keeps_arg8]
  rw [segP_v43, segP_v1, segP_v3, segP_keeps_arg2, segP_keeps_arg3, segP_keeps_arg4, segP_keeps_arg5, segP_keeps_arg6, segP_keeps_arg7, segP_keeps_arg8]
  rfl

end Cert.ReferenceIdeal.Stages

end
-- ==== Proof.RefRun.lean ====
/-
  The reference program as a straight line of host operations, the calls of its local functions unfolded at their
  call sites, and its run: every weakly fair execution terminates with every buffer at the operations' fold over the
  launch contents.
-/
import proofs.«120394_j25486335934641_1_alg».proof.Proof.RefStages

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 0, in order, the calls unfolded. -/
abbrev part0 : List (HloOp τ sig (Elt F)) :=
  [ StableHlo.unary main_arg9 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg9 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.binary main_arg0 main_arg1 main_v4 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.nullary main_v5 (iotaInDim S50000 32 0),
    StableHlo.binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.unary main_v11 main_v14 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S50000 ![] bcast_S_S50000),
    StableHlo.TRef.ternary (.of main_v13) (.of main_v14) main_call0.v1 main_call0.v2 select,
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v6 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v6 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v7 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v7 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v6 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v6 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v4 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v30 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v37 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v7 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg2 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x00000000#32),
    StableHlo.binary main_v46 main_cst_9 main_v47 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) ]

/-- The operations of the program's window 1, in order, the calls unfolded. -/
abbrev part1 : List (HloOp τ sig (Elt F)) :=
  [ StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.nullary main_cst_10 (constant S_ .f32 0x43000000#32),
    StableHlo.unary main_cst_10 main_v49 (broadcastInDim S50000x1 ![] bcast_S_S50000x1 : (⟨S_, .f32⟩ : BufTy).Contents (Elt F) → (⟨S50000x1, .f32⟩ : BufTy).Contents (Elt F)),
    StableHlo.binary main_v48 main_v49 main_v50 (Host.divf : (⟨S50000x1, .f32⟩ : BufTy).Contents (Elt F) → (⟨S50000x1, .f32⟩ : BufTy).Contents (Elt F) → (⟨S50000x1, .f32⟩ : BufTy).Contents (Elt F)),
    StableHlo.unary main_v50 main_v51 (broadcastInDim S50000x128 ![0, 1] bcast_S50000x1_S50000x128_0_1 : (⟨S50000x1, .f32⟩ : BufTy).Contents (Elt F) → (⟨S50000x128, .f32⟩ : BufTy).Contents (Elt F)),
    StableHlo.binary main_v46 main_v51 main_v52 (subf : (⟨S50000x128, .f32⟩ : BufTy).Contents (Elt F) → (⟨S50000x128, .f32⟩ : BufTy).Contents (Elt F) → (⟨S50000x128, .f32⟩ : BufTy).Contents (Elt F)),
    StableHlo.binary main_v52 main_v52 main_v53 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x00000000#32),
    StableHlo.binary main_v53 main_cst_11 main_v54 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v54 main_v55 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x43000000#32),
    StableHlo.unary main_cst_12 main_v56 (broadcastInDim S50000x1 ![] bcast_S_S50000x1 : (⟨S_, .f32⟩ : BufTy).Contents (Elt F) → (⟨S50000x1, .f32⟩ : BufTy).Contents (Elt F)),
    StableHlo.binary main_v55 main_v56 main_v57 (Host.divf : (⟨S50000x1, .f32⟩ : BufTy).Contents (Elt F) → (⟨S50000x1, .f32⟩ : BufTy).Contents (Elt F) → (⟨S50000x1, .f32⟩ : BufTy).Contents (Elt F)),
    StableHlo.unary main_v50 main_v58 (broadcastInDim S50000x128 ![0, 1] bcast_S50000x1_S50000x128_0_1 : (⟨S50000x1, .f32⟩ : BufTy).Contents (Elt F) → (⟨S50000x128, .f32⟩ : BufTy).Contents (Elt F)),
    StableHlo.binary main_v46 main_v58 main_v59 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v60 (broadcastInDim S50000x1 ![] bcast_S_S50000x1 : (⟨S_, .f32⟩ : BufTy).Contents (Elt F) → (⟨S50000x1, .f32⟩ : BufTy).Contents (Elt F)),
    StableHlo.binary main_v57 main_v60 main_v61 (addf : (⟨S50000x1, .f32⟩ : BufTy).Contents (Elt F) → (⟨S50000x1, .f32⟩ : BufTy).Contents (Elt F) → (⟨S50000x1, .f32⟩ : BufTy).Contents (Elt F)),
    StableHlo.unary main_v61 main_v62 (Host.rsqrt : (⟨S50000x1, .f32⟩ : BufTy).Contents (Elt F) → (⟨S50000x1, .f32⟩ : BufTy).Contents (Elt F)),
    StableHlo.unary main_v62 main_v63 (broadcastInDim S50000x128 ![0, 1] bcast_S50000x1_S50000x128_0_1 : (⟨S50000x1, .f32⟩ : BufTy).Contents (Elt F) → (⟨S50000x128, .f32⟩ : BufTy).Contents (Elt F)),
    StableHlo.binary main_v59 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg3 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_arg4 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v70) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v70) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v70) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v70) main_call1.v7 main_call1.call1.v0 select,
    StableHlo.binary main_v71 main_arg5 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v73 (iotaInDim S50000 32 0),
    StableHlo.binary main_v1 main_v73 main_v74 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v73 main_v75 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_14 (constant S_ .f32 0x3F800000#32),
    StableHlo.unary main_cst_14 main_v76 (broadcastInDim S850000 ![] bcast_S_S850000 : (⟨S_, .f32⟩ : BufTy).Contents (Elt F) → (⟨S850000, .f32⟩ : BufTy).Contents (Elt F)),
    StableHlo.nullary main_cst_15 (constant S_ .f32 0x00000000#32),
    StableHlo.unary main_cst_15 main_v77 (broadcastInDim S50000 ![] bcast_S_S50000 : (⟨S_, .f32⟩ : BufTy).Contents (Elt F) → (⟨S50000, .f32⟩ : BufTy).Contents (Elt F)),
    StableHlo.unary main_v75 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_16 (constant S_ .f32 0x00000000#32),
    StableHlo.unary main_cst_16 main_v80 (broadcastInDim S50000 ![] bcast_S_S50000 : (⟨S_, .f32⟩ : BufTy).Contents (Elt F) → (⟨S50000, .f32⟩ : BufTy).Contents (Elt F)),
    StableHlo.binary main_v79 main_v80 main_v81 (cmpf .ogt : (⟨S50000, .f32⟩ : BufTy).Contents (Elt F) → (⟨S50000, .f32⟩ : BufTy).Contents (Elt F) → (⟨S50000, .i1⟩ : BufTy).Contents (Elt F)),
    StableHlo.unary main_v79 main_v82 (Host.rsqrt : (⟨S50000, .f32⟩ : BufTy).Contents (Elt F) → (⟨S50000, .f32⟩ : BufTy).Contents (Elt F)),
    StableHlo.nullary main_cst_17 (constant S_ .f32 0x00000000#32),
    StableHlo.TRef.unary (.of main_cst_17) main_call2.v0 id,
    StableHlo.TRef.unary main_call2.v0 main_call2.v1 (broadcastInDim S50000 ![] bcast_S_S50000),
    StableHlo.TRef.ternary (.of main_v81) (.of main_v82) main_call2.v1 main_call2.v2 select,
    StableHlo.nullary main_c_18 (constantI S_ 32 0#32),
    StableHlo.unary main_c_18 main_v84 (broadcastInDim S850000 ![] bcast_S_S850000 : (⟨S_, .i32⟩ : BufTy).Contents (Elt F) → (⟨S850000, .i32⟩ : BufTy).Contents (Elt F)),
    StableHlo.binary main_v74 main_v84 main_v85 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v86 (broadcastInDim S850000 ![] bcast_S_S850000 : (⟨S_, .i32⟩ : BufTy).Contents (Elt F) → (⟨S850000, .i32⟩ : BufTy).Contents (Elt F)),
    StableHlo.binary main_v74 main_v86 main_v87 (addi : (⟨S850000, .i32⟩ : BufTy).Contents (Elt F) → (⟨S850000, .i32⟩ : BufTy).Contents (Elt F) → (⟨S850000, .i32⟩ : BufTy).Contents (Elt F)),
    StableHlo.ternary main_v85 main_v87 main_v74 main_v88 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v88 main_v89 (broadcastInDim S850000x1 ![0] bcast_S850000_S850000x1_0 : (⟨S850000, .i32⟩ : BufTy).Contents (Elt F) → (⟨S850000x1, .i32⟩ : BufTy).Contents (Elt F)),
    StableHlo.binary main_v83 main_v89 main_v90 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_20 (constantI S_ 32 0#32),
    StableHlo.unary main_c_20 main_v91 (broadcastInDim S850000 ![] bcast_S_S850000 : (⟨S_, .i32⟩ : BufTy).Contents (Elt F) → (⟨S850000, .i32⟩ : BufTy).Contents (Elt F)),
    StableHlo.binary main_v75 main_v91 main_v92 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v93 (broadcastInDim S850000 ![] bcast_S_S850000 : (⟨S_, .i32⟩ : BufTy).Contents (Elt F) → (⟨S850000, .i32⟩ : BufTy).Contents (Elt F)),
    StableHlo.binary main_v75 main_v93 main_v94 (addi : (⟨S850000, .i32⟩ : BufTy).Contents (Elt F) → (⟨S850000, .i32⟩ : BufTy).Contents (Elt F) → (⟨S850000, .i32⟩ : BufTy).Contents (Elt F)),
    StableHlo.ternary main_v92 main_v94 main_v75 main_v95 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)) ]

/-- The operations of the program's window 2, in order, the calls unfolded. -/
abbrev part2 : List (HloOp τ sig (Elt F)) :=
  [ StableHlo.unary main_v95 main_v96 (broadcastInDim S850000x1 ![0] bcast_S850000_S850000x1_0 : (⟨S850000, .i32⟩ : BufTy).Contents (Elt F) → (⟨S850000x1, .i32⟩ : BufTy).Contents (Elt F)),
    StableHlo.binary main_v83 main_v96 main_v97 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v90 main_v97 main_v98 (mulf : (⟨S850000, .f32⟩ : BufTy).Contents (Elt F) → (⟨S850000, .f32⟩ : BufTy).Contents (Elt F) → (⟨S850000, .f32⟩ : BufTy).Contents (Elt F)),
    StableHlo.nullary main_c_22 (constantI S_ 32 0#32),
    StableHlo.unary main_c_22 main_v99 (broadcastInDim S850000 ![] bcast_S_S850000 : (⟨S_, .i32⟩ : BufTy).Contents (Elt F) → (⟨S850000, .i32⟩ : BufTy).Contents (Elt F)),
    StableHlo.binary main_v74 main_v99 main_v100 (cmpi .slt : (⟨S850000, .i32⟩ : BufTy).Contents (Elt F) → (⟨S850000, .i32⟩ : BufTy).Contents (Elt F) → (⟨S850000, .i1⟩ : BufTy).Contents (Elt F)),
    StableHlo.nullary main_c_23 (constantI S_ 32 50000#32),
    StableHlo.unary main_c_23 main_v101 (broadcastInDim S850000 ![] bcast_S_S850000 : (⟨S_, .i32⟩ : BufTy).Contents (Elt F) → (⟨S850000, .i32⟩ : BufTy).Contents (Elt F)),
    StableHlo.binary main_v74 main_v101 main_v102 (addi : (⟨S850000, .i32⟩ : BufTy).Contents (Elt F) → (⟨S850000, .i32⟩ : BufTy).Contents (Elt F) → (⟨S850000, .i32⟩ : BufTy).Contents (Elt F)),
    StableHlo.ternary main_v100 main_v102 main_v74 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v103 main_v104 (broadcastInDim S850000x1 ![0] bcast_S850000_S850000x1_0 : (⟨S850000, .i32⟩ : BufTy).Contents (Elt F) → (⟨S850000x1, .i32⟩ : BufTy).Contents (Elt F)),
    StableHlo.binary main_v72 main_v104 main_v105 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v98 main_v106 (broadcastInDim S850000x1 ![0] bcast_S850000_S850000x1_0 : (⟨S850000, .f32⟩ : BufTy).Contents (Elt F) → (⟨S850000x1, .f32⟩ : BufTy).Contents (Elt F)),
    StableHlo.unary main_v106 main_v107 (broadcastInDim S850000x128 ![0, 1] bcast_S850000x1_S850000x128_0_1 : (⟨S850000x1, .f32⟩ : BufTy).Contents (Elt F) → (⟨S850000x128, .f32⟩ : BufTy).Contents (Elt F)),
    StableHlo.binary main_v105 main_v107 main_v108 (mulf : (⟨S850000x128, .f32⟩ : BufTy).Contents (Elt F) → (⟨S850000x128, .f32⟩ : BufTy).Contents (Elt F) → (⟨S850000x128, .f32⟩ : BufTy).Contents (Elt F)),
    StableHlo.nullary main_cst_24 (constant S_ .f32 0x00000000#32),
    StableHlo.unary main_cst_24 main_v109 (broadcastInDim S50000x128 ![] bcast_S_S50000x128 : (⟨S_, .f32⟩ : BufTy).Contents (Elt F) → (⟨S50000x128, .f32⟩ : BufTy).Contents (Elt F)),
    StableHlo.unary main_v75 main_v110 (broadcastInDim S850000x1 ![0] bcast_S850000_S850000x1_0 : (⟨S850000, .i32⟩ : BufTy).Contents (Elt F) → (⟨S850000x1, .i32⟩ : BufTy).Contents (Elt F)),
    StableHlo.ternary main_v109 main_v110 main_v108 main_v111 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg6 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v113 main_v114 (addf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x00000000#32),
    StableHlo.binary main_v114 main_cst_25 main_v115 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v115 main_v116 (broadcastInDim S50000x1 ![0] bcast_S50000_S50000x1_0 : (⟨S50000, .f32⟩ : BufTy).Contents (Elt F) → (⟨S50000x1, .f32⟩ : BufTy).Contents (Elt F)),
    StableHlo.nullary main_cst_26 (constant S_ .f32 0x43000000#32),
    StableHlo.unary main_cst_26 main_v117 (broadcastInDim S50000x1 ![] bcast_S_S50000x1 : (⟨S_, .f32⟩ : BufTy).Contents (Elt F) → (⟨S50000x1, .f32⟩ : BufTy).Contents (Elt F)),
    StableHlo.binary main_v116 main_v117 main_v118 (Host.divf : (⟨S50000x1, .f32⟩ : BufTy).Contents (Elt F) → (⟨S50000x1, .f32⟩ : BufTy).Contents (Elt F) → (⟨S50000x1, .f32⟩ : BufTy).Contents (Elt F)),
    StableHlo.unary main_v118 main_v119 (broadcastInDim S50000x128 ![0, 1] bcast_S50000x1_S50000x128_0_1 : (⟨S50000x1, .f32⟩ : BufTy).Contents (Elt F) → (⟨S50000x128, .f32⟩ : BufTy).Contents (Elt F)),
    StableHlo.binary main_v114 main_v119 main_v120 (subf : (⟨S50000x128, .f32⟩ : BufTy).Contents (Elt F) → (⟨S50000x128, .f32⟩ : BufTy).Contents (Elt F) → (⟨S50000x128, .f32⟩ : BufTy).Contents (Elt F)),
    StableHlo.binary main_v120 main_v120 main_v121 (mulf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x00000000#32),
    StableHlo.binary main_v121 main_cst_27 main_v122 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v122 main_v123 (broadcastInDim S50000x1 ![0] bcast_S50000_S50000x1_0 : (⟨S50000, .f32⟩ : BufTy).Contents (Elt F) → (⟨S50000x1, .f32⟩ : BufTy).Contents (Elt F)),
    StableHlo.nullary main_cst_28 (constant S_ .f32 0x43000000#32),
    StableHlo.unary main_cst_28 main_v124 (broadcastInDim S50000x1 ![] bcast_S_S50000x1 : (⟨S_, .f32⟩ : BufTy).Contents (Elt F) → (⟨S50000x1, .f32⟩ : BufTy).Contents (Elt F)),
    StableHlo.binary main_v123 main_v124 main_v125 (Host.divf : (⟨S50000x1, .f32⟩ : BufTy).Contents (Elt F) → (⟨S50000x1, .f32⟩ : BufTy).Contents (Elt F) → (⟨S50000x1, .f32⟩ : BufTy).Contents (Elt F)),
    StableHlo.unary main_v118 main_v126 (broadcastInDim S50000x128 ![0, 1] bcast_S50000x1_S50000x128_0_1 : (⟨S50000x1, .f32⟩ : BufTy).Contents (Elt F) → (⟨S50000x128, .f32⟩ : BufTy).Contents (Elt F)),
    StableHlo.binary main_v114 main_v126 main_v127 (subf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v128 (broadcastInDim S50000x1 ![] bcast_S_S50000x1 : (⟨S_, .f32⟩ : BufTy).Contents (Elt F) → (⟨S50000x1, .f32⟩ : BufTy).Contents (Elt F)),
    StableHlo.binary main_v125 main_v128 main_v129 (addf : (⟨S50000x1, .f32⟩ : BufTy).Contents (Elt F) → (⟨S50000x1, .f32⟩ : BufTy).Contents (Elt F) → (⟨S50000x1, .f32⟩ : BufTy).Contents (Elt F)),
    StableHlo.unary main_v129 main_v130 (Host.rsqrt : (⟨S50000x1, .f32⟩ : BufTy).Contents (Elt F) → (⟨S50000x1, .f32⟩ : BufTy).Contents (Elt F)),
    StableHlo.unary main_v130 main_v131 (broadcastInDim S50000x128 ![0, 1] bcast_S50000x1_S50000x128_0_1 : (⟨S50000x1, .f32⟩ : BufTy).Contents (Elt F) → (⟨S50000x128, .f32⟩ : BufTy).Contents (Elt F)),
    StableHlo.binary main_v127 main_v131 main_v132 (mulf : (⟨S50000x128, .f32⟩ : BufTy).Contents (Elt F) → (⟨S50000x128, .f32⟩ : BufTy).Contents (Elt F) → (⟨S50000x128, .f32⟩ : BufTy).Contents (Elt F)),
    StableHlo.unary main_arg7 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v132 main_v134 main_v135 (mulf : (⟨S50000x128, .f32⟩ : BufTy).Contents (Elt F) → (⟨S50000x128, .f32⟩ : BufTy).Contents (Elt F) → (⟨S50000x128, .f32⟩ : BufTy).Contents (Elt F)),
    StableHlo.unary main_arg8 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v137 main_v138 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v138) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v138) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v138) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v138) main_call3.v7 main_call3.call1.v0 select,
    StableHlo.binary main_v139 main_v71 main_v140 (addf : (⟨S50000x128, .f32⟩ : BufTy).Contents (Elt F) → (⟨S50000x128, .f32⟩ : BufTy).Contents (Elt F) → (⟨S50000x128, .f32⟩ : BufTy).Contents (Elt F)) ]

set_option maxHeartbeats 4000000 in
/-- Window 0 is that straight line: the local functions unfolded at their calls, sequencing reassociated. -/
theorem part0_eq (c : Dev nD) : main_part0 (F := F) c = seq part0 := by
  simp only [main_part0, fn_where.body, fn_where_0.body, fn_where_1.body, fn_elu.body, seq, bind_assoc, pure_bind]
  try rfl

theorem part0_sub : (part0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub ..⟩

set_option maxHeartbeats 4000000 in
/-- Window 1 is that straight line: the local functions unfolded at their calls, sequencing reassociated. -/
theorem part1_eq (c : Dev nD) : main_part1 (F := F) c = seq part1 := by
  simp only [main_part1, fn_where.body, fn_where_0.body, fn_where_1.body, fn_elu.body, seq, bind_assoc, pure_bind]
  try rfl

theorem part1_sub : (part1 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩

set_option maxHeartbeats 4000000 in
/-- Window 2 is that straight line: the local functions unfolded at their calls, sequencing reassociated. -/
theorem part2_eq (c : Dev nD) : main_part2 (F := F) c = seq part2 := by
  simp only [main_part2, fn_where.body, fn_where_0.body, fn_where_1.body, fn_elu.body, seq, bind_assoc, pure_bind]
  try rfl

theorem part2_sub : (part2 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩

/-- The whole program's operations. -/
abbrev ops : List (HloOp τ sig (Elt F)) := part0 ++ (part1 ++ part2)

theorem main_eq (c : Dev nD) : main (F := F) c = seq ops := by
  show (main_part0 c >>= fun _ => main_part1 c >>= fun _ => main_part2 c) = _
  rw [part0_eq, part1_eq, part2_eq, ops, seq_append, seq_append]

theorem ops_sub : (ops : List (HloOp τ sig (Elt F))).Forall fun op => op.bufs ⊆ tcRefs τ sig :=
  List.forall_append.mpr ⟨part0_sub, List.forall_append.mpr ⟨part1_sub, part2_sub⟩⟩

/-- The same list cut at the stages. -/
theorem ops_eq : (ops : List (HloOp τ sig (Elt F))) = segP ++ (segD ++ (segQ ++ (segG ++ segH))) := rfl

theorem scopedRefs_eq : (Finset.univ.filter fun b : Ref sig .tc => b.isScoped) = ∅ := by decide
theorem scopedSems_eq : (Finset.univ.filter fun sm : SemLoc sig => sm.isScoped .tc) = ∅ := by decide

theorem ops_keeps_arg0 (V : Valuation τ sig (Elt F)) :
    after ops V (main_arg0 : DevRef τ sig) = V (main_arg0 : DevRef τ sig) := by
  unfold ops part0 part1 part2
  simp only [List.cons_append, List.nil_append]
  stage_keeps

theorem ops_keeps_arg1 (V : Valuation τ sig (Elt F)) :
    after ops V (main_arg1 : DevRef τ sig) = V (main_arg1 : DevRef τ sig) := by
  unfold ops part0 part1 part2
  simp only [List.cons_append, List.nil_append]
  stage_keeps

theorem ops_keeps_arg2 (V : Valuation τ sig (Elt F)) :
    after ops V (main_arg2 : DevRef τ sig) = V (main_arg2 : DevRef τ sig) := by
  unfold ops part0 part1 part2
  simp only [List.cons_append, List.nil_append]
  stage_keeps

theorem ops_keeps_arg3 (V : Valuation τ sig (Elt F)) :
    after ops V (main_arg3 : DevRef τ sig) = V (main_arg3 : DevRef τ sig) := by
  unfold ops part0 part1 part2
  simp only [List.cons_append, List.nil_append]
  stage_keeps

theorem ops_keeps_arg4 (V : Valuation τ sig (Elt F)) :
    after ops V (main_arg4 : DevRef τ sig) = V (main_arg4 : DevRef τ sig) := by
  unfold ops part0 part1 part2
  simp only [List.cons_append, List.nil_append]
  stage_keeps

theorem ops_keeps_arg5 (V : Valuation τ sig (Elt F)) :
    after ops V (main_arg5 : DevRef τ sig) = V (main_arg5 : DevRef τ sig) := by
  unfold ops part0 part1 part2
  simp only [List.cons_append, List.nil_append]
  stage_keeps

theorem ops_keeps_arg6 (V : Valuation τ sig (Elt F)) :
    after ops V (main_arg6 : DevRef τ sig) = V (main_arg6 : DevRef τ sig) := by
  unfold ops part0 part1 part2
  simp only [List.cons_append, List.nil_append]
  stage_keeps

theorem ops_keeps_arg7 (V : Valuation τ sig (Elt F)) :
    after ops V (main_arg7 : DevRef τ sig) = V (main_arg7 : DevRef τ sig) := by
  unfold ops part0 part1 part2
  simp only [List.cons_append, List.nil_append]
  stage_keeps

theorem ops_keeps_arg8 (V : Valuation τ sig (Elt F)) :
    after ops V (main_arg8 : DevRef τ sig) = V (main_arg8 : DevRef τ sig) := by
  unfold ops part0 part1 part2
  simp only [List.cons_append, List.nil_append]
  stage_keeps

theorem ops_keeps_arg9 (V : Valuation τ sig (Elt F)) :
    after ops V (main_arg9 : DevRef τ sig) = V (main_arg9 : DevRef τ sig) := by
  unfold ops part0 part1 part2
  simp only [List.cons_append, List.nil_append]
  stage_keeps

/-- From any memory with zero counters every weakly fair execution of the program terminates, nothing faulting, with
    every buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Stages

end
-- ==== Proof.KerRun.lean ====
/-
  The kernel program's run, with every buffer named at the end, and its stretches of host operations read as the
  same stage functions the reference program computes: the edge table's two rows, and the sparse normalised
  aggregation of the projected rows; the parameter vectors recast as one-row matrices.
-/
import proofs.«120394_j25486335934641_1_alg».proof.Proof.Gen.KernelIdeal.Frame
import proofs.«120394_j25486335934641_1_alg».proof.Proof.RefStages

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (after)

variable {F : FTy → Type} [FloatOps F]

local notation "𝕄" => MT nD τ sig Unit (Elt F) ℕ (UR sig nD τ) ℕ

section TheRun
variable (m : (ℓ : Loc nD τ sig) → Buf (Elt F) ℓ) (ρ : Dev nD → PrngReg)

set_option backward.isDefEq.respectTransparency.types false in
/-- From any memory with zero counters every weakly fair execution of the kernel program terminates, nothing
    faulting, and every final state holds, in every buffer that outlives the regions, the contents the last
    segment boundary names: the launch of the program's segments, read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end TheRun

/-! ## The host stretches -/

open Idealize.ShloMosaic.StableHlo in
/-- The first stretch cuts the edge table into its rows. -/
theorem stretch0_v1 (W : Valuation τ sig (Elt F)) :
    after hostOps0 W (main_v1 : DevRef τ sig) = Cert.ReferenceIdeal.Stages.srcOf (W (main_arg9 : DevRef τ sig)) := by
  stage_value
open Idealize.ShloMosaic.StableHlo in
theorem stretch0_v3 (W : Valuation τ sig (Elt F)) :
    after hostOps0 W (main_v3 : DevRef τ sig) = Cert.ReferenceIdeal.Stages.dstOf (W (main_arg9 : DevRef τ sig)) := by
  stage_value
open Idealize.ShloMosaic.StableHlo in
theorem stretch0_keeps_arg0 (W : Valuation τ sig (Elt F)) :
    after hostOps0 W (main_arg0 : DevRef τ sig) = W (main_arg0 : DevRef τ sig) := by
  stage_keeps
open Idealize.ShloMosaic.StableHlo in
theorem stretch0_keeps_arg1 (W : Valuation τ sig (Elt F)) :
    after hostOps0 W (main_arg1 : DevRef τ sig) = W (main_arg1 : DevRef τ sig) := by
  stage_keeps
open Idealize.ShloMosaic.StableHlo in
theorem stretch0_keeps_arg2 (W : Valuation τ sig (Elt F)) :
    after hostOps0 W (main_arg2 : DevRef τ sig) = W (main_arg2 : DevRef τ sig) := by
  stage_keeps
open Idealize.ShloMosaic.StableHlo in
theorem stretch0_keeps_arg3 (W : Valuation τ sig (Elt F)) :
    after hostOps0 W (main_arg3 : DevRef τ sig) = W (main_arg3 : DevRef τ sig) := by
  stage_keeps
open Idealize.ShloMosaic.StableHlo in
theorem stretch0_keeps_arg4 (W : Valuation τ sig (Elt F)) :
    after hostOps0 W (main_arg4 : DevRef τ sig) = W (main_arg4 : DevRef τ sig) := by
  stage_keeps
open Idealize.ShloMosaic.StableHlo in
theorem stretch0_keeps_arg5 (W : Valuation τ sig (Elt F)) :
    after hostOps0 W (main_arg5 : DevRef τ sig) = W (main_arg5 : DevRef τ sig) := by
  stage_keeps
open Idealize.ShloMosaic.StableHlo in
theorem stretch0_keeps_arg6 (W : Valuation τ sig (Elt F)) :
    after hostOps0 W (main_arg6 : DevRef τ sig) = W (main_arg6 : DevRef τ sig) := by
  stage_keeps
open Idealize.ShloMosaic.StableHlo in
theorem stretch0_keeps_arg7 (W : Valuation τ sig (Elt F)) :
    after hostOps0 W (main_arg7 : DevRef τ sig) = W (main_arg7 : DevRef τ sig) := by
  stage_keeps
open Idealize.ShloMosaic.StableHlo in
theorem stretch0_keeps_arg8 (W : Valuation τ sig (Elt F)) :
    after hostOps0 W (main_arg8 : DevRef τ sig) = W (main_arg8 : DevRef τ sig) := by
  stage_keeps

open Idealize.ShloMosaic.StableHlo in
/-- The stretch between the first projection and the first normalisation is the aggregation of the projected rows. -/
theorem stretch1_v43 (W : Valuation τ sig (Elt F)) :
    after hostOps1_2 (after hostOps1_1 (after hostOps1 W)) (main_v43 : DevRef τ sig) = Cert.ReferenceIdeal.Stages.aggOf (W (main_v4 : DevRef τ sig)) (W (main_v1 : DevRef τ sig)) (W (main_v3 : DevRef τ sig)) := by
  stage_value
open Idealize.ShloMosaic.StableHlo in
theorem stretch1_v44 (W : Valuation τ sig (Elt F)) :
    after hostOps1_2 (after hostOps1_1 (after hostOps1 W)) (main_v44 : DevRef τ sig) = shapeCast S1x128 (W (main_arg2 : DevRef τ sig)) shapeCasts_S128_S1x128 := by
  stage_value
open Idealize.ShloMosaic.StableHlo in
theorem stretch1_v45 (W : Valuation τ sig (Elt F)) :
    after hostOps1_2 (after hostOps1_1 (after hostOps1 W)) (main_v45 : DevRef τ sig) = shapeCast S1x128 (W (main_arg3 : DevRef τ sig)) shapeCasts_S128_S1x128 := by
  stage_value
open Idealize.ShloMosaic.StableHlo in
theorem stretch1_v46 (W : Valuation τ sig (Elt F)) :
    after hostOps1_2 (after hostOps1_1 (after hostOps1 W)) (main_v46 : DevRef τ sig) = shapeCast S1x128 (W (main_arg4 : DevRef τ sig)) shapeCasts_S128_S1x128 := by
  stage_value
open Idealize.ShloMosaic.StableHlo in
theorem stretch1_keeps_v1 (W : Valuation τ sig (Elt F)) :
    after hostOps1_2 (after hostOps1_1 (after hostOps1 W)) (main_v1 : DevRef τ sig) = W (main_v1 : DevRef τ sig) := by
  stage_keeps
open Idealize.ShloMosaic.StableHlo in
theorem stretch1_keeps_v3 (W : Valuation τ sig (Elt F)) :
    after hostOps1_2 (after hostOps1_1 (after hostOps1 W)) (main_v3 : DevRef τ sig) = W (main_v3 : DevRef τ sig) := by
  stage_keeps
open Idealize.ShloMosaic.StableHlo in
theorem stretch1_keeps_arg5 (W : Valuation τ sig (Elt F)) :
    after hostOps1_2 (after hostOps1_1 (after hostOps1 W)) (main_arg5 : DevRef τ sig) = W (main_arg5 : DevRef τ sig) := by
  stage_keeps
open Idealize.ShloMosaic.StableHlo in
theorem stretch1_keeps_arg6 (W : Valuation τ sig (Elt F)) :
    after hostOps1_2 (after hostOps1_1 (after hostOps1 W)) (main_arg6 : DevRef τ sig) = W (main_arg6 : DevRef τ sig) := by
  stage_keeps
open Idealize.ShloMosaic.StableHlo in
theorem stretch1_keeps_arg7 (W : Valuation τ sig (Elt F)) :
    after hostOps1_2 (after hostOps1_1 (after hostOps1 W)) (main_arg7 : DevRef τ sig) = W (main_arg7 : DevRef τ sig) := by
  stage_keeps
open Idealize.ShloMosaic.StableHlo in
theorem stretch1_keeps_arg8 (W : Valuation τ sig (Elt F)) :
    after hostOps1_2 (after hostOps1_1 (after hostOps1 W)) (main_arg8 : DevRef τ sig) = W (main_arg8 : DevRef τ sig) := by
  stage_keeps

open Idealize.ShloMosaic.StableHlo in
/-- The stretch between the second projection and the second normalisation is the same aggregation. -/
theorem stretch3_v87 (W : Valuation τ sig (Elt F)) :
    after hostOps3_2 (after hostOps3_1 (after hostOps3 W)) (main_v87 : DevRef τ sig) = Cert.ReferenceIdeal.Stages.aggOf (W (main_v48 : DevRef τ sig)) (W (main_v1 : DevRef τ sig)) (W (main_v3 : DevRef τ sig)) := by
  stage_value
open Idealize.ShloMosaic.StableHlo in
theorem stretch3_v88 (W : Valuation τ sig (Elt F)) :
    after hostOps3_2 (after hostOps3_1 (after hostOps3 W)) (main_v88 : DevRef τ sig) = shapeCast S1x128 (W (main_arg6 : DevRef τ sig)) shapeCasts_S128_S1x128 := by
  stage_value
open Idealize.ShloMosaic.StableHlo in
theorem stretch3_v89 (W : Valuation τ sig (Elt F)) :
    after hostOps3_2 (after hostOps3_1 (after hostOps3 W)) (main_v89 : DevRef τ sig) = shapeCast S1x128 (W (main_arg7 : DevRef τ sig)) shapeCasts_S128_S1x128 := by
  stage_value
open Idealize.ShloMosaic.StableHlo in
theorem stretch3_v90 (W : Valuation τ sig (Elt F)) :
    after hostOps3_2 (after hostOps3_1 (after hostOps3 W)) (main_v90 : DevRef τ sig) = shapeCast S1x128 (W (main_arg8 : DevRef τ sig)) shapeCasts_S128_S1x128 := by
  stage_value
open Idealize.ShloMosaic.StableHlo in
theorem stretch3_keeps_v47 (W : Valuation τ sig (Elt F)) :
    after hostOps3_2 (after hostOps3_1 (after hostOps3 W)) (main_v47 : DevRef τ sig) = W (main_v47 : DevRef τ sig) := by
  stage_keeps

end Cert.KernelIdeal.Run

end
-- ==== Proof.MatmulBlocks.lean ====
/-
  The two matrix products of the network, as the kernel leaves them and as the host program computes them.

  Each product region walks the 50000 rows of its left operand in 25 blocks of 2000 rows; at each block it multiplies the
  block by the whole right operand, accumulating from zero, and writes the [2000, 128] result to the same rows of its
  output.  At the extended reals a change of format is the identity and the accumulation is a plain finite sum, so entry
  (r, c) of a block's result is the sum over k of x (r, k) * w (k, c); row r of the array lies in block r / 2000, at row
  r % 2000 of it, and the 25 blocks cover the array.  Hence the output array is the matrix product of the two arrays the
  region finds, entry by entry.  The host's dot_general over the whole arrays is the same sum.
-/
import proofs.«120394_j25486335934641_1_alg».proof.Proof.Gen.KernelIdeal.Frame
import proofs.«120394_j25486335934641_1_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.KernelIdeal.MM

open Cert.KernelIdeal Cert.KernelIdeal.Gen Idealize.ShloMosaic Idealize.ShloMosaic.TcCoe Idealize.SL.Sem
open Idealize.ShloMosaic.ValueIdx
open Idealize.ShloMosaic.Pipeline (Dat)

/-! ## The specification -/

/-- The product of an [m, k] matrix by a [k, n] matrix of extended reals: entry (r, c) is the sum over the k inner
    coordinates of x (r, ·) * w (·, c). -/
def matProd {m k n : Nat} (x : (⟨2, ![m, k]⟩ : Shape).Idx → EReal) (w : (⟨2, ![k, n]⟩ : Shape).Idx → EReal) :
    (⟨2, ![m, n]⟩ : Shape).Idx → EReal :=
  fun i => ∑ c : Fin k, x (ix2 (i 0) c) * w (ix2 c (i 1))

/-- The product at an entry given by its coordinates. -/
theorem matProd_apply {m k n : Nat} (x : (⟨2, ![m, k]⟩ : Shape).Idx → EReal) (w : (⟨2, ![k, n]⟩ : Shape).Idx → EReal)
    (r : Fin m) (c : Fin n) : matProd x w (ix2 r c) = ∑ j : Fin k, x (ix2 r j) * w (ix2 j c) := rfl

/-- The first layer's product: [50000, 256] by [256, 128]. -/
abbrev MM256 (x : (⟨2, ![50000, 256]⟩ : Shape).Idx → EReal) (w : (⟨2, ![256, 128]⟩ : Shape).Idx → EReal) :
    (⟨2, ![50000, 128]⟩ : Shape).Idx → EReal := matProd x w

/-- The second layer's product: [50000, 128] by [128, 128]. -/
abbrev MM128 (x : (⟨2, ![50000, 128]⟩ : Shape).Idx → EReal) (w : (⟨2, ![128, 128]⟩ : Shape).Idx → EReal) :
    (⟨2, ![50000, 128]⟩ : Shape).Idx → EReal := matProd x w

/-! ## A one-axis contraction read by its coordinate -/

/-- A dot whose operands are an [m, k] and a [k, n] matrix contracted along k (left axis 1, right axis 0, no batch
    axis), read at entry (r, c): the sum over the k inner coordinates of the products of the operands' entries. -/
theorem contraction_sum {m k n : Nat}
    (wf : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (c : Fin n) :
    (∑ q : (⟨[1], [0], [0], [1], [], [], wf⟩ : DotDims ⟨2, ![m, k]⟩ ⟨2, ![k, n]⟩ ⟨2, ![m, n]⟩).contr.Idx,
        A ((⟨[1], [0], [0], [1], [], [], wf⟩ : DotDims _ _ _).lhsIdx (ix2 r c) q)
          * B ((⟨[1], [0], [0], [1], [], [], wf⟩ : DotDims _ _ _).rhsIdx (ix2 r c) q))
      = ∑ j : Fin k, A (ix2 r j) * B (ix2 j c) := by
  rw [← Equiv.sum_comp (contrEquiv1 (⟨[1], [0], [0], [1], [], [], wf⟩ : DotDims ⟨2, ![m, k]⟩ ⟨2, ![k, n]⟩ ⟨2, ![m, n]⟩) k rfl rfl).symm]
  refine Finset.sum_congr rfl fun j _ => ?_
  have cj := contrEquiv1_symm_val
    (⟨[1], [0], [0], [1], [], [], wf⟩ : DotDims ⟨2, ![m, k]⟩ ⟨2, ![k, n]⟩ ⟨2, ![m, n]⟩) k rfl rfl j
  have hl : (⟨[1], [0], [0], [1], [], [], wf⟩ : DotDims ⟨2, ![m, k]⟩ ⟨2, ![k, n]⟩ ⟨2, ![m, n]⟩).lhsIdx (ix2 r c)
      ((contrEquiv1 _ k rfl rfl).symm j) = ix2 r j := by
    funext ax; apply Fin.ext
    match ax with
    | ⟨0, _⟩ => simp [DotDims.lhsIdx]; rfl
    | ⟨1, _⟩ => simp [DotDims.lhsIdx]; exact cj
  have hr : (⟨[1], [0], [0], [1], [], [], wf⟩ : DotDims ⟨2, ![m, k]⟩ ⟨2, ![k, n]⟩ ⟨2, ![m, n]⟩).rhsIdx (ix2 r c)
      ((contrEquiv1 _ k rfl rfl).symm j) = ix2 j c := by
    funext ax; apply Fin.ext
    match ax with
    | ⟨0, _⟩ => simp [DotDims.rhsIdx]; exact cj
    | ⟨1, _⟩ => simp [DotDims.rhsIdx]; rfl
  rw [hl, hr]

/-! ## One block's product, entry by entry -/

/-- Entry (p, q) of the first product's block result: the sum over the 256 inner coordinates. -/
theorem blockProd256_apply (x0 : Vec Ideal S2000x256 .f32) (x1 : Vec Ideal S256x128 .f32) (p : Fin 2000) (q : Fin 128) :
    k0_pay1 (F := Ideal) x0 x1 (ix2 p q) = ∑ j : Fin 256, x0 (ix2 p j) * x1 (ix2 j q) := by
  unfold k0_pay1
  refine (Ideal.matmul_constant_zero_apply _ none _ _ (ix2 p q)).trans ?_
  exact contraction_sum _ x0 x1 p q

/-- Entry (p, q) of the second product's block result: the sum over the 128 inner coordinates. -/
theorem blockProd128_apply (x0 : Vec Ideal S2000x128 .f32) (x1 : Vec Ideal S128x128 .f32) (p : Fin 2000) (q : Fin 128) :
    k2_pay1 (F := Ideal) x0 x1 (ix2 p q) = ∑ j : Fin 128, x0 (ix2 p j) * x1 (ix2 j q) := by
  unfold k2_pay1
  rw [shapeCast_self]
  refine (Ideal.matmul_constant_zero_apply _ none _ _ (ix2 p q)).trans ?_
  exact contraction_sum _ x0 x1 p q

/-! ## The host's products -/

/-- The host's first product is the matrix product. -/
theorem ref_dot256 (x : FVec Ideal ⟨2, ![50000, 256]⟩ .f32) (w : FVec Ideal ⟨2, ![256, 128]⟩ .f32) :
    Host.dotGeneral (F := Ideal) Cert.ReferenceIdeal.dot_S50000x256_S256x128_S50000x128_1_0_0_1_n_n none x w = MM256 x w := by
  funext i
  obtain ⟨r, c, rfl⟩ : ∃ (r : Fin 50000) (c : Fin 128), i = ix2 r c := ⟨i 0, i 1, eq_ix2 i⟩
  show FloatOps.dotGeneral _ none _ x w (ix2 r c) = _
  rw [Ideal.dotGeneral_apply]
  exact contraction_sum _ x w r c

/-- The host's second product is the matrix product. -/
theorem ref_dot128 (x : FVec Ideal ⟨2, ![50000, 128]⟩ .f32) (w : FVec Ideal ⟨2, ![128, 128]⟩ .f32) :
    Host.dotGeneral (F := Ideal) Cert.ReferenceIdeal.dot_S50000x128_S128x128_S50000x128_1_0_0_1_n_n none x w = MM128 x w := by
  funext i
  obtain ⟨r, c, rfl⟩ : ∃ (r : Fin 50000) (c : Fin 128), i = ix2 r c := ⟨i 0, i 1, eq_ix2 i⟩
  show FloatOps.dotGeneral _ none _ x w (ix2 r c) = _
  rw [Ideal.dotGeneral_apply]
  exact contraction_sum _ x w r c

/-! ## The first product's region -/

section Regions
variable (V : (c : Dev nD) → (b : Ref sig .tc) → Buf (Elt Ideal) ((c : Thread nD τ).loc b))

/-- The whole-block rectangle's offsets are zero on both axes. -/
theorem zeroOffsets : (![0, 0] : Fin 2 → Nat) = fun _ => 0 := funext fun a => by fin_cases a <;> rfl

/-- The block indices of the first product's windows over its 25 points: the left operand and the result move down the
    rows with the point, the right operand stays whole. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block of the first product against the whole arrays: if the left block is rows 2000 n … 2000 n + 1999 of X and
    the right block is W, entry (p, q) of the block's product is the entry of the product of X and W at row 2000 n + p
    and column q. -/
theorem blockEntry256 (X : (⟨2, ![50000, 256]⟩ : Shape).Idx → EReal) (W : (⟨2, ![256, 128]⟩ : Shape).Idx → EReal)
    (x0 : Vec Ideal S2000x256 .f32) (x1 : Vec Ideal S256x128 .f32) (n : Nat)
    (h0 : ∀ (p : Fin 2000) (k : Fin 256) (r : Fin 50000), r.val = n * 2000 + p.val → x0 (ix2 p k) = X (ix2 r k))
    (h1 : ∀ (k : Fin 256) (q : Fin 128), x1 (ix2 k q) = W (ix2 k q))
    (p : Fin 2000) (q : Fin 128) (i : (⟨2, ![50000, 128]⟩ : Shape).Idx)
    (hi0 : (i 0).val = n * 2000 + p.val) (hi1 : (i 1).val = q.val) :
    k0_pay1 (F := Ideal) x0 x1 (ix2 p q) = MM256 X W i := by
  obtain ⟨r, c, rfl⟩ : ∃ (r : Fin 50000) (c : Fin 128), i = ix2 r c := ⟨i 0, i 1, eq_ix2 i⟩
  obtain rfl : c = q := Fin.ext hi1
  rw [blockProd256_apply]
  show _ = ∑ j : Fin 256, X (ix2 r j) * W (ix2 j c)
  exact Finset.sum_congr rfl fun k _ => by rw [h0 p k r hi0, h1 k c]

/-- The left operand's block at point t is rows 2000 t … 2000 t + 1999 of the array the region finds. -/
theorem leftBlock0 (c : Dev nD) (t : Fin cfg0.N) (p : Fin 2000) (k : Fin 256) (r : Fin 50000)
    (hr : r.val = t.val * 2000 + p.val) :
    (iblk0 V c 0 t : Vec Ideal S2000x256 .f32) (ix2 p k)
      = (V c (Pipeline.arrRef spec0 0) : (⟨2, ![50000, 256]⟩ : Shape).Idx → EReal) (ix2 r k) := by
  obtain ⟨e00, e01, -⟩ := blockIdx0 t
  show (V c (Pipeline.arrRef spec0 0) : (⟨2, ![50000, 256]⟩ : Shape).Idx → EReal) (((cfg0.win 0).blk t).view.emb (ix2 p k)) = _
  refine congrArg (V c (Pipeline.arrRef spec0 0) : (⟨2, ![50000, 256]⟩ : Shape).Idx → EReal) (funext fun a => Fin.ext ?_)
  match a with
  | ⟨0, _⟩ => show win0_0.index t (0 : Fin 2) * 2000 + 1 * p.val = r.val; rw [e00, hr]; omega
  | ⟨1, _⟩ => show win0_0.index t (1 : Fin 2) * 256 + 1 * k.val = k.val; rw [e01]; omega

/-- The right operand's block at every point is the whole array the region finds. -/
theorem rightBlock0 (c : Dev nD) (t : Fin cfg0.N) (k : Fin 256) (q : Fin 128) :
    (iblk0 V c 1 t : Vec Ideal S256x128 .f32) (ix2 k q)
      = (V c (Pipeline.arrRef spec0 1) : (⟨2, ![256, 128]⟩ : Shape).Idx → EReal) (ix2 k q) := by
  obtain ⟨-, -, e10, e11, -⟩ := blockIdx0 t
  show (V c (Pipeline.arrRef spec0 1) : (⟨2, ![256, 128]⟩ : Shape).Idx → EReal) (((cfg0.win 1).blk t).view.emb (ix2 k q)) = _
  refine congrArg (V c (Pipeline.arrRef spec0 1) : (⟨2, ![256, 128]⟩ : Shape).Idx → EReal) (funext fun a => Fin.ext ?_)
  match a with
  | ⟨0, _⟩ => show win0_1.index t (0 : Fin 2) * 256 + 1 * k.val = k.val; rw [e10]; omega
  | ⟨1, _⟩ => show win0_1.index t (1 : Fin 2) * 128 + 1 * q.val = q.val; rw [e11]; omega

/-- What point t writes back is block t of the product of the two arrays the region finds. -/
theorem flushed0_eq (c : Dev nD) (t : Fin cfg0.N) :
    (dat0 (F := Ideal) V c).flushed 2 t
      = ((cfg0.win 2).blk t).view.read (Elt Ideal) (MM256 (V c (Pipeline.arrRef spec0 0)) (V c (Pipeline.arrRef spec0 1))) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x128) zeroOffsets]
  funext j
  obtain ⟨p, q, rfl⟩ : ∃ (p : Fin 2000) (q : Fin 128), j = ix2 p q := ⟨j 0, j 1, eq_ix2 j⟩
  obtain ⟨-, -, -, -, e20, e21⟩ := blockIdx0 t
  show k0_pay1 (F := Ideal) (iblk0 V c 0 t) (iblk0 V c 1 t) (ix2 p q)
    = MM256 (V c (Pipeline.arrRef spec0 0)) (V c (Pipeline.arrRef spec0 1)) (((cfg0.win 2).blk t).view.emb (ix2 p q))
  refine blockEntry256 _ _ _ _ t.val (leftBlock0 V c t) (rightBlock0 V c t) p q _ ?_ ?_
  · show win0_2.index t (0 : Fin 2) * 2000 + 1 * p.val = _; rw [e20]; omega
  · show win0_2.index t (1 : Fin 2) * 128 + 1 * q.val = _; rw [e21]; omega

/-- An index of the result array is in point t's block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Row r of the result lies in the block of point r / 2000: the 25 blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, e20, e21⟩ := blockIdx0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e20, ht]; omega
  | ⟨1, _⟩ =>
    show win0_2.index t (1 : Fin 2) * 128 ≤ (i 1).val ∧ (i 1).val < win0_2.index t (1 : Fin 2) * 128 + 128
    rw [e21]; omega

/-- After the first product's region its result array is the product of the two arrays the region finds. -/
theorem final0 (c : Dev nD) :
    (dat0 (F := Ideal) V c).arrAt 2 cfg0.N = MM256 (V c (Pipeline.arrRef spec0 0)) (V c (Pipeline.arrRef spec0 1)) :=
  (dat0 V c).arrAt_eq_of_cover 2 _ (fun t _ => flushed0_eq V c t) cover0

/-! ## The second product's region -/

/-- The block indices of the second product's windows over its 25 points: the left operand and the result move down the
    rows with the point, the right operand stays whole. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One block of the second product against the whole arrays: if the left block is rows 2000 n … 2000 n + 1999 of X and
    the right block is W, entry (p, q) of the block's product is the entry of the product of X and W at row 2000 n + p
    and column q. -/
theorem blockEntry128 (X : (⟨2, ![50000, 128]⟩ : Shape).Idx → EReal) (W : (⟨2, ![128, 128]⟩ : Shape).Idx → EReal)
    (x0 : Vec Ideal S2000x128 .f32) (x1 : Vec Ideal S128x128 .f32) (n : Nat)
    (h0 : ∀ (p : Fin 2000) (k : Fin 128) (r : Fin 50000), r.val = n * 2000 + p.val → x0 (ix2 p k) = X (ix2 r k))
    (h1 : ∀ (k : Fin 128) (q : Fin 128), x1 (ix2 k q) = W (ix2 k q))
    (p : Fin 2000) (q : Fin 128) (i : (⟨2, ![50000, 128]⟩ : Shape).Idx)
    (hi0 : (i 0).val = n * 2000 + p.val) (hi1 : (i 1).val = q.val) :
    k2_pay1 (F := Ideal) x0 x1 (ix2 p q) = MM128 X W i := by
  obtain ⟨r, c, rfl⟩ : ∃ (r : Fin 50000) (c : Fin 128), i = ix2 r c := ⟨i 0, i 1, eq_ix2 i⟩
  obtain rfl : c = q := Fin.ext hi1
  rw [blockProd128_apply]
  show _ = ∑ j : Fin 128, X (ix2 r j) * W (ix2 j c)
  exact Finset.sum_congr rfl fun k _ => by rw [h0 p k r hi0, h1 k c]

/-- The left operand's block at point t is rows 2000 t … 2000 t + 1999 of the array the region finds. -/
theorem leftBlock2 (c : Dev nD) (t : Fin cfg2.N) (p : Fin 2000) (k : Fin 128) (r : Fin 50000)
    (hr : r.val = t.val * 2000 + p.val) :
    (iblk2 V c 0 t : Vec Ideal S2000x128 .f32) (ix2 p k)
      = (V c (Pipeline.arrRef spec2 0) : (⟨2, ![50000, 128]⟩ : Shape).Idx → EReal) (ix2 r k) := by
  obtain ⟨e00, e01, -⟩ := blockIdx2 t
  show (V c (Pipeline.arrRef spec2 0) : (⟨2, ![50000, 128]⟩ : Shape).Idx → EReal) (((cfg2.win 0).blk t).view.emb (ix2 p k)) = _
  refine congrArg (V c (Pipeline.arrRef spec2 0) : (⟨2, ![50000, 128]⟩ : Shape).Idx → EReal) (funext fun a => Fin.ext ?_)
  match a with
  | ⟨0, _⟩ => show win2_0.index t (0 : Fin 2) * 2000 + 1 * p.val = r.val; rw [e00, hr]; omega
  | ⟨1, _⟩ => show win2_0.index t (1 : Fin 2) * 128 + 1 * k.val = k.val; rw [e01]; omega

/-- The right operand's block at every point is the whole array the region finds. -/
theorem rightBlock2 (c : Dev nD) (t : Fin cfg2.N) (k : Fin 128) (q : Fin 128) :
    (iblk2 V c 1 t : Vec Ideal S128x128 .f32) (ix2 k q)
      = (V c (Pipeline.arrRef spec2 1) : (⟨2, ![128, 128]⟩ : Shape).Idx → EReal) (ix2 k q) := by
  obtain ⟨-, -, e10, e11, -⟩ := blockIdx2 t
  show (V c (Pipeline.arrRef spec2 1) : (⟨2, ![128, 128]⟩ : Shape).Idx → EReal) (((cfg2.win 1).blk t).view.emb (ix2 k q)) = _
  refine congrArg (V c (Pipeline.arrRef spec2 1) : (⟨2, ![128, 128]⟩ : Shape).Idx → EReal) (funext fun a => Fin.ext ?_)
  match a with
  | ⟨0, _⟩ => show win2_1.index t (0 : Fin 2) * 128 + 1 * k.val = k.val; rw [e10]; omega
  | ⟨1, _⟩ => show win2_1.index t (1 : Fin 2) * 128 + 1 * q.val = q.val; rw [e11]; omega

/-- What point t writes back is block t of the product of the two arrays the region finds. -/
theorem flushed2_eq (c : Dev nD) (t : Fin cfg2.N) :
    (dat2 (F := Ideal) V c).flushed 2 t
      = ((cfg2.win 2).blk t).view.read (Elt Ideal) (MM128 (V c (Pipeline.arrRef spec2 0)) (V c (Pipeline.arrRef spec2 1))) := by
  show (cfg2.win 2).cut (grid2.coords t) ((dat2 V c).after 2 t) = _
  rw [after2_2]
  unfold out2_2
  rw [View.canon_unit_zero zeroOffsets]
  simp only [View.ld_unit_zero (S := S2000x128) zeroOffsets, View.ld_unit_zero (S := S128x128) zeroOffsets]
  funext j
  obtain ⟨p, q, rfl⟩ : ∃ (p : Fin 2000) (q : Fin 128), j = ix2 p q := ⟨j 0, j 1, eq_ix2 j⟩
  obtain ⟨-, -, -, -, e20, e21⟩ := blockIdx2 t
  show k2_pay1 (F := Ideal) (iblk2 V c 0 t) (iblk2 V c 1 t) (ix2 p q)
    = MM128 (V c (Pipeline.arrRef spec2 0)) (V c (Pipeline.arrRef spec2 1)) (((cfg2.win 2).blk t).view.emb (ix2 p q))
  refine blockEntry128 _ _ _ _ t.val (leftBlock2 V c t) (rightBlock2 V c t) p q _ ?_ ?_
  · show win2_2.index t (0 : Fin 2) * 2000 + 1 * p.val = _; rw [e20]; omega
  · show win2_2.index t (1 : Fin 2) * 128 + 1 * q.val = _; rw [e21]; omega

/-- An index of the result array is in point t's block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v48).slice (win2_2.rect t)).set ↔ _
  rw [View.set_slice_whole, Rect.mem_set_unit]
  exact Iff.rfl

/-- Row r of the result lies in the block of point r / 2000: the 25 blocks cover the array. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, e20, e21⟩ := blockIdx2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    rw [e20, ht]; omega
  | ⟨1, _⟩ =>
    show win2_2.index t (1 : Fin 2) * 128 ≤ (i 1).val ∧ (i 1).val < win2_2.index t (1 : Fin 2) * 128 + 128
    rw [e21]; omega

/-- After the second product's region its result array is the product of the two arrays the region finds. -/
theorem final2 (c : Dev nD) :
    (dat2 (F := Ideal) V c).arrAt 2 cfg2.N = MM128 (V c (Pipeline.arrRef spec2 0)) (V c (Pipeline.arrRef spec2 1)) :=
  (dat2 V c).arrAt_eq_of_cover 2 _ (fun t _ => flushed2_eq V c t) cover2

end Regions

end Cert.KernelIdeal.MM

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LayerNormElu.lean ====
/-
  The two fused bias + layer-normalisation + exponential-linear-unit regions of the kernel program, each read as one
  function of the arrays the region finds, index by index.

  The specification works on one row of 128 entries: its mean (the sum divided by 128), its variance (the mean of the
  squared deviations), entry q normalised by the reciprocal square root of the variance plus 1e-5, scaled and shifted by
  two parameter rows, then x ↦ x where x > 0 and exp x - 1 elsewhere. `LNELU a b g be` applies it to every row of a
  [50000, 128] array a after adding the bias row b; `LNELUres` adds a residual array to the result.

  Each region runs on a grid of 25 points; point t reads rows 2000 t … 2000 t + 1999 of the row arrays and the whole of
  each one-row parameter array, and writes the same rows of the output. The stored value at row p, column q of a block
  is the specification of that block's row p (`pay1_apply`, `pay3_apply`); a block's row p is the array's row
  2000 t + p (`blockVal1`, `blockVal3`); the 25 blocks cover the output (row r lies in block r / 2000), so the output
  array is the specification of the input arrays (`final1`, `final3res`, `final3`). Nothing is assumed finite: both
  sides are the same operations on the same entries in the same order.
-/
import proofs.«120394_j25486335934641_1_alg».proof.Proof.Gen.KernelIdeal.Frame
import proofs.«120394_j25486335934641_1_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.LN

open Idealize.ShloMosaic Idealize.ShloMosaic.TcCoe Idealize.ShloMosaic.ValueIdx Idealize.SL.Sem
open Idealize.ShloMosaic.Pipeline (Dat)
open Cert.Attn.Layout
open Cert.KernelIdeal Cert.KernelIdeal.Gen

/-! ## The specification: bias, layer normalisation over a row of 128 entries, exponential linear unit -/

/-- The mean of a row of 128 entries: their sum divided by 128. -/
def rowMean (v : Fin 128 → EReal) : EReal :=
  Ideal.div (∑ k : Fin 128, v k) (Ideal.ofBits .f32 0x43000000#32)

/-- The variance of a row of 128 entries: the mean of the squared deviations from the row's mean. -/
def rowVar (v : Fin 128 → EReal) : EReal :=
  Ideal.div (∑ k : Fin 128, (v k - rowMean v) * (v k - rowMean v)) (Ideal.ofBits .f32 0x43000000#32)

/-- The exponential linear unit: x where x > 0, exp x - 1 elsewhere. -/
def elu (x : EReal) : EReal :=
  Scalar.select (Ideal.cmp .ogt x (Ideal.ofBits .f32 0x00000000#32)) x (Ideal.exp x - Ideal.ofBits .f32 0x3F800000#32)

/-- Entry q of a row after normalisation: the deviation from the row's mean times the reciprocal square root of the
    row's variance plus 1e-5, times the scale g, plus the shift be. -/
def rowNormed (v g be : Fin 128 → EReal) (q : Fin 128) : EReal :=
  (v q - rowMean v) * Ideal.rsqrt (rowVar v + Ideal.ofBits .f32 0x3727C5AC#32) * g q + be q

/-- Entry q of a row normalised, scaled, shifted, then passed through the unit. -/
def lnElu (v g be : Fin 128 → EReal) (q : Fin 128) : EReal := elu (rowNormed v g be q)

/-- Bias, layer normalisation and unit of a [50000, 128] array, row by row: row p of the result is `lnElu` of row p of
    a with the bias b added, scaled by g and shifted by be. -/
def LNELU (a : (⟨2, ![50000, 128]⟩ : Shape).Idx → EReal) (b g be : (⟨1, ![128]⟩ : Shape).Idx → EReal) :
    (⟨2, ![50000, 128]⟩ : Shape).Idx → EReal :=
  fun i => lnElu (fun k => a (ix2 (⟨(i 0).val, idx2_lt0 i⟩ : Fin 50000) k) + b (ix1 k)) (fun k => g (ix1 k)) (fun k => be (ix1 k))
    (⟨(i 1).val, idx2_lt1 i⟩ : Fin 128)

/-- The specification at row p, column q. -/
theorem LNELU_apply (a : (⟨2, ![50000, 128]⟩ : Shape).Idx → EReal) (b g be : (⟨1, ![128]⟩ : Shape).Idx → EReal)
    (p : Fin 50000) (q : Fin 128) :
    LNELU a b g be (ix2 p q) = lnElu (fun k => a (ix2 p k) + b (ix1 k)) (fun k => g (ix1 k)) (fun k => be (ix1 k)) q := rfl

/-- The same with a residual array added, index by index. -/
def LNELUres (a res : (⟨2, ![50000, 128]⟩ : Shape).Idx → EReal) (b g be : (⟨1, ![128]⟩ : Shape).Idx → EReal) :
    (⟨2, ![50000, 128]⟩ : Shape).Idx → EReal :=
  fun i => LNELU a b g be i + res i

/-! ## The kernels' stored values at an index of a block -/

theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

/-- A sum along the rows of a block of 2000 rows of 128 entries, read at row p: the sum of the row's entries. -/
theorem rowSum_blk (src : FVec Ideal S2000x128 .f32) (h : S2000x128.Reduces [1] S2000) (hφ : FKind.Formats .f32)
    (hacc : (0x00000000#32 : BitVec 32) = 0x00000000#32) (p : Fin 2000) :
    multiReduction .add [1] S2000 src 0x00000000#32 h hφ hacc (ix1 p) = ∑ k : Fin 128, src (ix2 p k) :=
  rowSum_apply src h hφ hacc p

/-- The first normalisation kernel's stored value at row p, column q of its block: `lnElu` of the block's row p with
    the bias row added. -/
theorem pay1_apply (x0 : Vec Ideal S2000x128 .f32) (x1 x2 x3 : Vec Ideal S1x128 .f32) (p : Fin 2000) (q : Fin 128) :
    Gen.k1_pay1 (F := Ideal) x0 x1 x2 x3 (ix2 p q)
      = lnElu (fun k => x0 (ix2 p k) + x1 (ix2 (0 : Fin 1) k)) (fun k => x2 (ix2 (0 : Fin 1) k)) (fun k => x3 (ix2 (0 : Fin 1) k)) q := by
  unfold Gen.k1_pay1
  simp only [select_apply, cmpf_apply, addf_apply, subf_apply, mulf_apply, divf_apply, broadcast_apply, exp_apply, rsqrt_apply,
    shapeCast_self, broadcastTo_1b_ab_apply, broadcastTo_a1_ab_apply, shapeCast_a_a1_apply]
  rw [rowSum_blk, rowSum_blk]
  simp only [select_apply, cmpf_apply, addf_apply, subf_apply, mulf_apply, divf_apply, broadcast_apply, exp_apply, rsqrt_apply,
    shapeCast_self, broadcastTo_1b_ab_apply, broadcastTo_a1_ab_apply, shapeCast_a_a1_apply]
  rw [rowSum_blk]
  simp only [select_apply, cmpf_apply, addf_apply, subf_apply, mulf_apply, divf_apply, broadcast_apply, exp_apply, rsqrt_apply,
    shapeCast_self, broadcastTo_1b_ab_apply, broadcastTo_a1_ab_apply, shapeCast_a_a1_apply]
  rfl

/-- The second normalisation kernel's stored value at row p, column q of its block: the same with the residual
    block's entry added. -/
theorem pay3_apply (x0 : Vec Ideal S2000x128 .f32) (x1 x2 x3 : Vec Ideal S1x128 .f32) (x4 : Vec Ideal S2000x128 .f32)
    (p : Fin 2000) (q : Fin 128) :
    Gen.k3_pay1 (F := Ideal) x0 x1 x2 x3 x4 (ix2 p q)
      = lnElu (fun k => x0 (ix2 p k) + x1 (ix2 (0 : Fin 1) k)) (fun k => x2 (ix2 (0 : Fin 1) k)) (fun k => x3 (ix2 (0 : Fin 1) k)) q
        + x4 (ix2 p q) := by
  unfold Gen.k3_pay1
  simp only [select_apply, cmpf_apply, addf_apply, subf_apply, mulf_apply, divf_apply, broadcast_apply, exp_apply, rsqrt_apply,
    shapeCast_self, broadcastTo_1b_ab_apply, broadcastTo_a1_ab_apply, shapeCast_a_a1_apply]
  rw [rowSum_blk, rowSum_blk]
  simp only [select_apply, cmpf_apply, addf_apply, subf_apply, mulf_apply, divf_apply, broadcast_apply, exp_apply, rsqrt_apply,
    shapeCast_self, broadcastTo_1b_ab_apply, broadcastTo_a1_ab_apply, shapeCast_a_a1_apply]
  rw [rowSum_blk]
  simp only [select_apply, cmpf_apply, addf_apply, subf_apply, mulf_apply, divf_apply, broadcast_apply, exp_apply, rsqrt_apply,
    shapeCast_self, broadcastTo_1b_ab_apply, broadcastTo_a1_ab_apply, shapeCast_a_a1_apply]
  rfl

/-! ## From a block to the array -/

theorem hz : (![0, 0] : Fin 2 → Nat) = fun _ => 0 := funext fun a => by fin_cases a <;> rfl

/-- The first kernel's stored value at an index of a block of 2000 rows is the specification's value at the block's
    place in the array: the block's rows are rows n * 2000 … n * 2000 + 1999 of the array, and the three parameter rows
    are the parameter vectors. -/
theorem blockVal1 (A : (⟨2, ![50000, 128]⟩ : Shape).Idx → EReal) (b g be : (⟨1, ![128]⟩ : Shape).Idx → EReal)
    (x0 : Vec Ideal S2000x128 .f32) (x1 x2 x3 : Vec Ideal S1x128 .f32) (n : Nat)
    (h0 : ∀ (p : Fin 2000) (q : Fin 128) (r : Fin 50000), r.val = n * 2000 + p.val → x0 (ix2 p q) = A (ix2 r q))
    (h1 : ∀ q : Fin 128, x1 (ix2 (0 : Fin 1) q) = b (ix1 q)) (h2 : ∀ q : Fin 128, x2 (ix2 (0 : Fin 1) q) = g (ix1 q))
    (h3 : ∀ q : Fin 128, x3 (ix2 (0 : Fin 1) q) = be (ix1 q))
    (j : (⟨2, ![2000, 128]⟩ : Shape).Idx) (i : (⟨2, ![50000, 128]⟩ : Shape).Idx)
    (hi0 : (i 0).val = n * 2000 + (j 0).val) (hi1 : (i 1).val = (j 1).val) :
    Gen.k1_pay1 (F := Ideal) x0 x1 x2 x3 j = LNELU A b g be i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hi1
  rw [pay1_apply, LNELU_apply]
  congr 1
  · funext k; rw [h0 p k r hi0, h1 k]
  · funext k; exact h2 k
  · funext k; exact h3 k

/-- The second kernel's likewise, with the residual array's entry at the same place added. -/
theorem blockVal3 (A R : (⟨2, ![50000, 128]⟩ : Shape).Idx → EReal) (b g be : (⟨1, ![128]⟩ : Shape).Idx → EReal)
    (x0 : Vec Ideal S2000x128 .f32) (x1 x2 x3 : Vec Ideal S1x128 .f32) (x4 : Vec Ideal S2000x128 .f32) (n : Nat)
    (h0 : ∀ (p : Fin 2000) (q : Fin 128) (r : Fin 50000), r.val = n * 2000 + p.val → x0 (ix2 p q) = A (ix2 r q))
    (h1 : ∀ q : Fin 128, x1 (ix2 (0 : Fin 1) q) = b (ix1 q)) (h2 : ∀ q : Fin 128, x2 (ix2 (0 : Fin 1) q) = g (ix1 q))
    (h3 : ∀ q : Fin 128, x3 (ix2 (0 : Fin 1) q) = be (ix1 q))
    (h4 : ∀ (p : Fin 2000) (q : Fin 128) (r : Fin 50000), r.val = n * 2000 + p.val → x4 (ix2 p q) = R (ix2 r q))
    (j : (⟨2, ![2000, 128]⟩ : Shape).Idx) (i : (⟨2, ![50000, 128]⟩ : Shape).Idx)
    (hi0 : (i 0).val = n * 2000 + (j 0).val) (hi1 : (i 1).val = (j 1).val) :
    Gen.k3_pay1 (F := Ideal) x0 x1 x2 x3 x4 j = LNELUres A R b g be i := by
  show _ = LNELU A b g be i + R i
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hi1
  rw [pay3_apply, LNELU_apply, h4 p _ r hi0]
  congr 2
  · funext k; rw [h0 p k r hi0, h1 k]
  · funext k; exact h2 k
  · funext k; exact h3 k

/-! ## The first normalisation region: its output array -/

/-- The printed index maps of the first region, decided over the grid: the row windows' block index is the point on
    the rows and 0 on the columns; the parameter windows' is 0 on both. -/
theorem idx_facts1 : ∀ t : Fin cfg1.N, win1_0.index t (0 : Fin 2) = t.val ∧ win1_0.index t (1 : Fin 2) = 0
    ∧ win1_4.index t (0 : Fin 2) = t.val ∧ win1_4.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

section Region1
variable (V : (c : Dev nD) → (b : Ref sig .tc) → Buf (Elt Ideal) ((c : Thread nD τ).loc b))

/-- Window 0's block at point t is rows t * 2000 … t * 2000 + 1999 of its array. -/
theorem iblk1_0_apply (c : Dev nD) (t : Fin cfg1.N) (p : Fin 2000) (q : Fin 128) (r : Fin 50000) (hr : r.val = t.val * 2000 + p.val) :
    (Gen.iblk1 V c 0 t : Vec Ideal S2000x128 .f32) (ix2 p q) = (V c (Pipeline.arrRef spec1 0) : (⟨2, ![50000, 128]⟩ : Shape).Idx → EReal) (ix2 r q) := by
  obtain ⟨e0, e1, -⟩ := idx_facts1 t
  unfold Gen.iblk1
  rw [View.read_apply]
  refine congrArg (V c (Pipeline.arrRef spec1 0)) ?_
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * q.val = q.val; rw [e1]; omega

/-- Window 1's block at any point is its whole one-row array. -/
theorem iblk1_1_apply (c : Dev nD) (t : Fin cfg1.N) (u : Fin 1) (q : Fin 128) :
    (Gen.iblk1 V c 1 t : Vec Ideal S1x128 .f32) (ix2 u q) = (V c (Pipeline.arrRef spec1 1) : (⟨2, ![1, 128]⟩ : Shape).Idx → EReal) (ix2 u q) := by
  obtain ⟨-, -, -, -, e0, e1, -⟩ := idx_facts1 t
  unfold Gen.iblk1
  rw [View.read_apply]
  refine congrArg (V c (Pipeline.arrRef spec1 1)) ?_
  funext a
  apply Fin.ext
  match a with
  | ⟨0, _⟩ => show win1_1.index t (0 : Fin 2) * 1 + 1 * u.val = u.val; rw [e0]; omega
  | ⟨1, _⟩ => show win1_1.index t (1 : Fin 2) * 128 + 1 * q.val = q.val; rw [e1]; omega

/-- Window 2's block at any point is its whole one-row array. -/
theorem iblk1_2_apply (c : Dev nD) (t : Fin cfg1.N) (u : Fin 1) (q : Fin 128) :
    (Gen.iblk1 V c 2 t : Vec Ideal S1x128 .f32) (ix2 u q) = (V c (Pipeline.arrRef spec1 2) : (⟨2, ![1, 128]⟩ : Shape).Idx → EReal) (ix2 u q) := by
  obtain ⟨-, -, -, -, -, -, e0, e1, -⟩ := idx_facts1 t
  unfold Gen.iblk1
  rw [View.read_apply]
  refine congrArg (V c (Pipeline.arrRef spec1 2)) ?_
  funext a
  apply Fin.ext
  match a with
  | ⟨0, _⟩ => show win1_2.index t (0 : Fin 2) * 1 + 1 * u.val = u.val; rw [e0]; omega
  | ⟨1, _⟩ => show win1_2.index t (1 : Fin 2) * 128 + 1 * q.val = q.val; rw [e1]; omega

/-- Window 3's block at any point is its whole one-row array. -/
theorem iblk1_3_apply (c : Dev nD) (t : Fin cfg1.N) (u : Fin 1) (q : Fin 128) :
    (Gen.iblk1 V c 3 t : Vec Ideal S1x128 .f32) (ix2 u q) = (V c (Pipeline.arrRef spec1 3) : (⟨2, ![1, 128]⟩ : Shape).Idx → EReal) (ix2 u q) := by
  obtain ⟨-, -, -, -, -, -, -, -, e0, e1⟩ := idx_facts1 t
  unfold Gen.iblk1
  rw [View.read_apply]
  refine congrArg (V c (Pipeline.arrRef spec1 3)) ?_
  funext a
  apply Fin.ext
  match a with
  | ⟨0, _⟩ => show win1_3.index t (0 : Fin 2) * 1 + 1 * u.val = u.val; rw [e0]; omega
  | ⟨1, _⟩ => show win1_3.index t (1 : Fin 2) * 128 + 1 * q.val = q.val; rw [e1]; omega

/-- What point t writes back is block t of the specification of the arrays the region finds. -/
theorem flushed1_eq (c : Dev nD) (b g be : (⟨1, ![128]⟩ : Shape).Idx → EReal)
    (hb : ∀ (u : Fin 1) (q : Fin 128), (V c (Pipeline.arrRef spec1 1) : (⟨2, ![1, 128]⟩ : Shape).Idx → EReal) (ix2 u q) = b (ix1 q))
    (hg : ∀ (u : Fin 1) (q : Fin 128), (V c (Pipeline.arrRef spec1 2) : (⟨2, ![1, 128]⟩ : Shape).Idx → EReal) (ix2 u q) = g (ix1 q))
    (hbe : ∀ (u : Fin 1) (q : Fin 128), (V c (Pipeline.arrRef spec1 3) : (⟨2, ![1, 128]⟩ : Shape).Idx → EReal) (ix2 u q) = be (ix1 q))
    (t : Fin cfg1.N) :
    (Gen.dat1 (F := Ideal) V c).flushed 4 t
      = ((cfg1.win 4).blk t).view.read (Elt Ideal) (LNELU (V c (Pipeline.arrRef spec1 0)) b g be) := by
  show (cfg1.win 4).cut (grid1.coords t) ((Gen.dat1 V c).after 4 t) = _
  rw [Gen.after1_4]
  unfold Gen.out1_4
  rw [View.canon_unit_zero hz]
  simp only [View.ld_unit_zero (S := S2000x128) hz, View.ld_unit_zero (S := S1x128) hz]
  obtain ⟨-, -, e2, e3, -⟩ := idx_facts1 t
  funext j
  show Gen.k1_pay1 (F := Ideal) (Gen.iblk1 V c 0 t) (Gen.iblk1 V c 1 t) (Gen.iblk1 V c 2 t) (Gen.iblk1 V c 3 t) j
    = LNELU (V c (Pipeline.arrRef spec1 0)) b g be (((cfg1.win 4).blk t).view.emb j)
  refine blockVal1 (V c (Pipeline.arrRef spec1 0)) b g be (Gen.iblk1 V c 0 t) (Gen.iblk1 V c 1 t) (Gen.iblk1 V c 2 t)
    (Gen.iblk1 V c 3 t) t.val (fun p q r hr => iblk1_0_apply V c t p q r hr)
    (fun q => (iblk1_1_apply V c t 0 q).trans (hb 0 q)) (fun q => (iblk1_2_apply V c t 0 q).trans (hg 0 q))
    (fun q => (iblk1_3_apply V c t 0 q).trans (hbe 0 q)) j (((cfg1.win 4).blk t).view.emb j) ?_ ?_
  · show win1_4.index t (0 : Fin 2) * 2000 + 1 * (j 0).val = t.val * 2000 + (j 0).val; rw [e2]; omega
  · show win1_4.index t (1 : Fin 2) * 128 + 1 * (j 1).val = (j 1).val; rw [e3]; omega

/-- An index of the output array is in point t's block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v47).slice (win1_4.rect t)).set ↔ _
  rw [View.set_slice_whole, Rect.mem_set_unit]
  exact Iff.rfl

/-- Every index of the output array is in some point's block: row r is in block r / 2000. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ : ∃ t : Fin cfg1.N, t.val = (i 0).val / 2000 := ⟨⟨(i 0).val / 2000, by show (i 0).val / 2000 < 25; omega⟩, rfl⟩
  obtain ⟨-, -, e2, e3, -⟩ := idx_facts1 t
  refine ⟨t, Gen.flush1_4 t, ?_⟩
  rw [mem_blk1]
  intro a
  match a with
  | ⟨0, _⟩ => show win1_4.index t (0 : Fin 2) * 2000 ≤ (i 0).val ∧ (i 0).val < win1_4.index t (0 : Fin 2) * 2000 + 2000; rw [e2, ht]; omega
  | ⟨1, _⟩ => show win1_4.index t (1 : Fin 2) * 128 ≤ (i 1).val ∧ (i 1).val < win1_4.index t (1 : Fin 2) * 128 + 128; rw [e3]; omega

/-- THE FIRST NORMALISATION REGION'S OUTPUT ARRAY: the specification of the region's first array with the three
    parameter vectors its one-row arrays hold. -/
theorem final1 (c : Dev nD) (b g be : (⟨1, ![128]⟩ : Shape).Idx → EReal)
    (hb : ∀ (u : Fin 1) (q : Fin 128), (V c (Pipeline.arrRef spec1 1) : (⟨2, ![1, 128]⟩ : Shape).Idx → EReal) (ix2 u q) = b (ix1 q))
    (hg : ∀ (u : Fin 1) (q : Fin 128), (V c (Pipeline.arrRef spec1 2) : (⟨2, ![1, 128]⟩ : Shape).Idx → EReal) (ix2 u q) = g (ix1 q))
    (hbe : ∀ (u : Fin 1) (q : Fin 128), (V c (Pipeline.arrRef spec1 3) : (⟨2, ![1, 128]⟩ : Shape).Idx → EReal) (ix2 u q) = be (ix1 q)) :
    (Gen.dat1 (F := Ideal) V c).arrAt 4 cfg1.N = LNELU (V c (Pipeline.arrRef spec1 0)) b g be :=
  (Gen.dat1 (F := Ideal) V c).arrAt_eq_of_cover 4 (LNELU (V c (Pipeline.arrRef spec1 0)) b g be)
    (fun t _ => flushed1_eq V c b g be hb hg hbe t) cover1

end Region1

/-! ## The second normalisation region (with the residual): its output array -/

/-- The printed index maps of the second region, decided over the grid. -/
theorem idx_facts3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section Region3
variable (V : (c : Dev nD) → (b : Ref sig .tc) → Buf (Elt Ideal) ((c : Thread nD τ).loc b))

/-- Window 0's block at point t is rows t * 2000 … t * 2000 + 1999 of its array. -/
theorem iblk3_0_apply (c : Dev nD) (t : Fin cfg3.N) (p : Fin 2000) (q : Fin 128) (r : Fin 50000) (hr : r.val = t.val * 2000 + p.val) :
    (Gen.iblk3 V c 0 t : Vec Ideal S2000x128 .f32) (ix2 p q) = (V c (Pipeline.arrRef spec3 0) : (⟨2, ![50000, 128]⟩ : Shape).Idx → EReal) (ix2 r q) := by
  obtain ⟨e0, e1, -⟩ := idx_facts3 t
  unfold Gen.iblk3
  rw [View.read_apply]
  refine congrArg (V c (Pipeline.arrRef spec3 0)) ?_
  funext a
  apply Fin.ext
  match a with
  | ⟨0, _⟩ => show win3_0.index t (0 : Fin 2) * 2000 + 1 * p.val = r.val; rw [e0, hr]; omega
  | ⟨1, _⟩ => show win3_0.index t (1 : Fin 2) * 128 + 1 * q.val = q.val; rw [e1]; omega

/-- Window 4's block (the residual) at point t is rows t * 2000 … t * 2000 + 1999 of its array. -/
theorem iblk3_4_apply (c : Dev nD) (t : Fin cfg3.N) (p : Fin 2000) (q : Fin 128) (r : Fin 50000) (hr : r.val = t.val * 2000 + p.val) :
    (Gen.iblk3 V c 4 t : Vec Ideal S2000x128 .f32) (ix2 p q) = (V c (Pipeline.arrRef spec3 4) : (⟨2, ![50000, 128]⟩ : Shape).Idx → EReal) (ix2 r q) := by
  obtain ⟨-, -, -, -, -, -, -, -, -, -, e0, e1⟩ := idx_facts3 t
  unfold Gen.iblk3
  rw [View.read_apply]
  refine congrArg (V c (Pipeline.arrRef spec3 4)) ?_
  funext a
  apply Fin.ext
  match a with
  | ⟨0, _⟩ => show win3_4.index t (0 : Fin 2) * 2000 + 1 * p.val = r.val; rw [e0, hr]; omega
  | ⟨1, _⟩ => show win3_4.index t (1 : Fin 2) * 128 + 1 * q.val = q.val; rw [e1]; omega

/-- Window 1's block at any point is its whole one-row array. -/
theorem iblk3_1_apply (c : Dev nD) (t : Fin cfg3.N) (u : Fin 1) (q : Fin 128) :
    (Gen.iblk3 V c 1 t : Vec Ideal S1x128 .f32) (ix2 u q) = (V c (Pipeline.arrRef spec3 1) : (⟨2, ![1, 128]⟩ : Shape).Idx → EReal) (ix2 u q) := by
  obtain ⟨-, -, -, -, e0, e1, -⟩ := idx_facts3 t
  unfold Gen.iblk3
  rw [View.read_apply]
  refine congrArg (V c (Pipeline.arrRef spec3 1)) ?_
  funext a
  apply Fin.ext
  match a with
  | ⟨0, _⟩ => show win3_1.index t (0 : Fin 2) * 1 + 1 * u.val = u.val; rw [e0]; omega
  | ⟨1, _⟩ => show win3_1.index t (1 : Fin 2) * 128 + 1 * q.val = q.val; rw [e1]; omega

/-- Window 2's block at any point is its whole one-row array. -/
theorem iblk3_2_apply (c : Dev nD) (t : Fin cfg3.N) (u : Fin 1) (q : Fin 128) :
    (Gen.iblk3 V c 2 t : Vec Ideal S1x128 .f32) (ix2 u q) = (V c (Pipeline.arrRef spec3 2) : (⟨2, ![1, 128]⟩ : Shape).Idx → EReal) (ix2 u q) := by
  obtain ⟨-, -, -, -, -, -, e0, e1, -⟩ := idx_facts3 t
  unfold Gen.iblk3
  rw [View.read_apply]
  refine congrArg (V c (Pipeline.arrRef spec3 2)) ?_
  funext a
  apply Fin.ext
  match a with
  | ⟨0, _⟩ => show win3_2.index t (0 : Fin 2) * 1 + 1 * u.val = u.val; rw [e0]; omega
  | ⟨1, _⟩ => show win3_2.index t (1 : Fin 2) * 128 + 1 * q.val = q.val; rw [e1]; omega

/-- Window 3's block at any point is its whole one-row array. -/
theorem iblk3_3_apply (c : Dev nD) (t : Fin cfg3.N) (u : Fin 1) (q : Fin 128) :
    (Gen.iblk3 V c 3 t : Vec Ideal S1x128 .f32) (ix2 u q) = (V c (Pipeline.arrRef spec3 3) : (⟨2, ![1, 128]⟩ : Shape).Idx → EReal) (ix2 u q) := by
  obtain ⟨-, -, -, -, -, -, -, -, e0, e1, -⟩ := idx_facts3 t
  unfold Gen.iblk3
  rw [View.read_apply]
  refine congrArg (V c (Pipeline.arrRef spec3 3)) ?_
  funext a
  apply Fin.ext
  match a with
  | ⟨0, _⟩ => show win3_3.index t (0 : Fin 2) * 1 + 1 * u.val = u.val; rw [e0]; omega
  | ⟨1, _⟩ => show win3_3.index t (1 : Fin 2) * 128 + 1 * q.val = q.val; rw [e1]; omega

set_option maxHeartbeats 400000 in
/-- What point t writes back is block t of the specification of the arrays the region finds, plus the residual. -/
theorem flushed3_eq (c : Dev nD) (b g be : (⟨1, ![128]⟩ : Shape).Idx → EReal)
    (hb : ∀ (u : Fin 1) (q : Fin 128), (V c (Pipeline.arrRef spec3 1) : (⟨2, ![1, 128]⟩ : Shape).Idx → EReal) (ix2 u q) = b (ix1 q))
    (hg : ∀ (u : Fin 1) (q : Fin 128), (V c (Pipeline.arrRef spec3 2) : (⟨2, ![1, 128]⟩ : Shape).Idx → EReal) (ix2 u q) = g (ix1 q))
    (hbe : ∀ (u : Fin 1) (q : Fin 128), (V c (Pipeline.arrRef spec3 3) : (⟨2, ![1, 128]⟩ : Shape).Idx → EReal) (ix2 u q) = be (ix1 q))
    (t : Fin cfg3.N) :
    (Gen.dat3 (F := Ideal) V c).flushed 5 t
      = ((cfg3.win 5).blk t).view.read (Elt Ideal)
          (LNELUres (V c (Pipeline.arrRef spec3 0)) (V c (Pipeline.arrRef spec3 4)) b g be) := by
  show (cfg3.win 5).cut (grid3.coords t) ((Gen.dat3 V c).after 5 t) = _
  rw [Gen.after3_5]
  unfold Gen.out3_5
  rw [View.canon_unit_zero hz]
  simp only [View.ld_unit_zero (S := S2000x128) hz, View.ld_unit_zero (S := S1x128) hz]
  obtain ⟨-, -, e2, e3, -⟩ := idx_facts3 t
  funext j
  show Gen.k3_pay1 (F := Ideal) (Gen.iblk3 V c 0 t) (Gen.iblk3 V c 1 t) (Gen.iblk3 V c 2 t) (Gen.iblk3 V c 3 t) (Gen.iblk3 V c 4 t) j
    = LNELUres (V c (Pipeline.arrRef spec3 0)) (V c (Pipeline.arrRef spec3 4)) b g be (((cfg3.win 5).blk t).view.emb j)
  refine blockVal3 (V c (Pipeline.arrRef spec3 0)) (V c (Pipeline.arrRef spec3 4)) b g be (Gen.iblk3 V c 0 t) (Gen.iblk3 V c 1 t)
    (Gen.iblk3 V c 2 t) (Gen.iblk3 V c 3 t) (Gen.iblk3 V c 4 t) t.val (fun p q r hr => iblk3_0_apply V c t p q r hr)
    (fun q => (iblk3_1_apply V c t 0 q).trans (hb 0 q)) (fun q => (iblk3_2_apply V c t 0 q).trans (hg 0 q))
    (fun q => (iblk3_3_apply V c t 0 q).trans (hbe 0 q)) (fun p q r hr => iblk3_4_apply V c t p q r hr)
    j (((cfg3.win 5).blk t).view.emb j) ?_ ?_
  · show win3_5.index t (0 : Fin 2) * 2000 + 1 * (j 0).val = t.val * 2000 + (j 0).val; rw [e2]; omega
  · show win3_5.index t (1 : Fin 2) * 128 + 1 * (j 1).val = (j 1).val; rw [e3]; omega

/-- An index of the output array is in point t's block iff each coordinate is in the block's range on its axis. -/
theorem mem_blk3 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v91).slice (win3_5.rect t)).set ↔ _
  rw [View.set_slice_whole, Rect.mem_set_unit]
  exact Iff.rfl

/-- Every index of the output array is in some point's block: row r is in block r / 2000. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 2000 := ⟨⟨(i 0).val / 2000, by show (i 0).val / 2000 < 25; omega⟩, rfl⟩
  obtain ⟨-, -, e2, e3, -⟩ := idx_facts3 t
  refine ⟨t, Gen.flush3_5 t, ?_⟩
  rw [mem_blk3]
  intro a
  match a with
  | ⟨0, _⟩ => show win3_5.index t (0 : Fin 2) * 2000 ≤ (i 0).val ∧ (i 0).val < win3_5.index t (0 : Fin 2) * 2000 + 2000; rw [e2, ht]; omega
  | ⟨1, _⟩ => show win3_5.index t (1 : Fin 2) * 128 ≤ (i 1).val ∧ (i 1).val < win3_5.index t (1 : Fin 2) * 128 + 128; rw [e3]; omega

/-- THE SECOND NORMALISATION REGION'S OUTPUT ARRAY: the specification of the region's first array with the three
    parameter vectors its one-row arrays hold, plus the residual array, index by index. -/
theorem final3res (c : Dev nD) (b g be : (⟨1, ![128]⟩ : Shape).Idx → EReal)
    (hb : ∀ (u : Fin 1) (q : Fin 128), (V c (Pipeline.arrRef spec3 1) : (⟨2, ![1, 128]⟩ : Shape).Idx → EReal) (ix2 u q) = b (ix1 q))
    (hg : ∀ (u : Fin 1) (q : Fin 128), (V c (Pipeline.arrRef spec3 2) : (⟨2, ![1, 128]⟩ : Shape).Idx → EReal) (ix2 u q) = g (ix1 q))
    (hbe : ∀ (u : Fin 1) (q : Fin 128), (V c (Pipeline.arrRef spec3 3) : (⟨2, ![1, 128]⟩ : Shape).Idx → EReal) (ix2 u q) = be (ix1 q)) :
    (Gen.dat3 (F := Ideal) V c).arrAt 5 cfg3.N
      = LNELUres (V c (Pipeline.arrRef spec3 0)) (V c (Pipeline.arrRef spec3 4)) b g be :=
  (Gen.dat3 (F := Ideal) V c).arrAt_eq_of_cover 5
    (LNELUres (V c (Pipeline.arrRef spec3 0)) (V c (Pipeline.arrRef spec3 4)) b g be)
    (fun t _ => flushed3_eq V c b g be hb hg hbe t) cover3

/-- The same with the sum written out, index by index. -/
theorem final3 (c : Dev nD) (b g be : (⟨1, ![128]⟩ : Shape).Idx → EReal)
    (hb : ∀ (u : Fin 1) (q : Fin 128), (V c (Pipeline.arrRef spec3 1) : (⟨2, ![1, 128]⟩ : Shape).Idx → EReal) (ix2 u q) = b (ix1 q))
    (hg : ∀ (u : Fin 1) (q : Fin 128), (V c (Pipeline.arrRef spec3 2) : (⟨2, ![1, 128]⟩ : Shape).Idx → EReal) (ix2 u q) = g (ix1 q))
    (hbe : ∀ (u : Fin 1) (q : Fin 128), (V c (Pipeline.arrRef spec3 3) : (⟨2, ![1, 128]⟩ : Shape).Idx → EReal) (ix2 u q) = be (ix1 q)) :
    (Gen.dat3 (F := Ideal) V c).arrAt 5 cfg3.N
      = fun (i : (⟨2, ![50000, 128]⟩ : Shape).Idx) => LNELU (V c (Pipeline.arrRef spec3 0)) b g be i
          + (V c (Pipeline.arrRef spec3 4) : (⟨2, ![50000, 128]⟩ : Shape).Idx → EReal) i :=
  final3res V c b g be hb hg hbe

end Region3

end Cert.KernelIdeal.LN

end
-- ==== Proof.LayerNormEluRef.lean ====
/-
  The reference program's dense tail of a layer — the bias added to every row, the row-wise layer normalisation, the
  scale and shift, and the exponential linear unit as the host writes it — read at an index, stage by stage, is the
  specification `LNELU`: the same operations on the same entries in the same order. The host's sums start from the
  zero word, which is 0; its unit multiplies by the word of 1.0, which is 1, and takes the exponential of an argument
  that is the entry itself wherever that branch is read.
-/
import proofs.«120394_j25486335934641_1_alg».proof.Proof.RefStages
import proofs.«120394_j25486335934641_1_alg».proof.Proof.LayerNormElu
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.LN

open Idealize.ShloMosaic Idealize.ShloMosaic.ValueIdx

section Host
variable {α : Type}

/-- A vector of n entries broadcast along axis 1 into one row reads, at (u, q), entry q. -/
theorem bcastRow_apply {n : Nat} (hd : (⟨1, ![n]⟩ : Shape).BroadcastsInDim ⟨2, ![1, n]⟩ ![1])
    (x : (⟨1, ![n]⟩ : Shape).Idx → α) (u : Fin 1) (q : Fin n) :
    broadcastInDim ⟨2, ![1, n]⟩ ![1] hd x (ix2 u q) = x (ix1 q) := by
  refine broadcastInDim_apply ![1] hd x (ix2 u q) (ix1 q) ?_
  intro a
  match a with
  | ⟨0, _⟩ =>
    show q.val = if n = 1 then 0 else q.val
    split
    · have := q.isLt; omega
    · rfl

/-- A vector of m entries broadcast along axis 0 into one column reads, at (p, u), entry p. -/
theorem bcastCol_apply {m : Nat} (hd : (⟨1, ![m]⟩ : Shape).BroadcastsInDim ⟨2, ![m, 1]⟩ ![0])
    (x : (⟨1, ![m]⟩ : Shape).Idx → α) (p : Fin m) (u : Fin 1) :
    broadcastInDim ⟨2, ![m, 1]⟩ ![0] hd x (ix2 p u) = x (ix1 p) := by
  refine broadcastInDim_apply ![0] hd x (ix2 p u) (ix1 p) ?_
  intro a
  match a with
  | ⟨0, _⟩ =>
    show p.val = if m = 1 then 0 else p.val
    split
    · have := p.isLt; omega
    · rfl

/-- A column of m entries broadcast along both axes to n columns reads, at (p, q), the column's entry of row p. -/
theorem bcastColTo_apply {m n : Nat} (hd : (⟨2, ![m, 1]⟩ : Shape).BroadcastsInDim ⟨2, ![m, n]⟩ ![0, 1])
    (y : (⟨2, ![m, 1]⟩ : Shape).Idx → α) (p : Fin m) (q : Fin n) :
    broadcastInDim ⟨2, ![m, n]⟩ ![0, 1] hd y (ix2 p q) = y (ix2 p (0 : Fin 1)) := by
  refine broadcastInDim_apply ![0, 1] hd y (ix2 p q) (ix2 p (0 : Fin 1)) ?_
  intro a
  match a with
  | ⟨0, _⟩ =>
    show p.val = if m = 1 then 0 else p.val
    split
    · have := p.isLt; omega
    · rfl
  | ⟨1, _⟩ =>
    show (0 : ℕ) = if (1 : ℕ) = 1 then 0 else q.val
    rw [if_pos rfl]

end Host

theorem hostDivf_apply {s : Shape} {φ : FTy} (a b : FVec Ideal s φ) (i : s.Idx) : Host.divf a b i = Ideal.div (a i) (b i) := rfl
theorem hostRsqrt_apply {s : Shape} {φ : FTy} (a : FVec Ideal s φ) (i : s.Idx) : Host.rsqrt a i = Ideal.rsqrt (a i) := rfl
theorem hostExpm1_apply {s : Shape} {φ : FTy} (a : FVec Ideal s φ) (i : s.Idx) : Host.expm1 a i = Ideal.exp (a i) - 1 := rfl

/-- The host's sum along the rows of the [50000, 128] array from a scalar initial value, read at row p: the initial
    value plus the sum of the row's entries. -/
theorem hostRowSum_apply (x : FVec Ideal ⟨2, ![50000, 128]⟩ .f32) (init : (⟨0, ![]⟩ : Shape).Idx → EReal)
    (h' : (⟨2, ![50000, 128]⟩ : Shape).ReducesTo [1] ⟨1, ![50000]⟩) (hu : 0 < (⟨0, ![]⟩ : Shape).numel) (p : Fin 50000) :
    Host.reduceAdd (F := Ideal) x init h' hu (ix1 p) = init (Shape.Idx.first hu) + ∑ k : Fin 128, x (ix2 p k) := by
  have h : (⟨2, ![50000, 128]⟩ : Shape).Reduces [1] ⟨1, ![50000]⟩ := by decide
  refine (Ideal.hostReduceAdd_single h' h x (init (Shape.Idx.first hu)) (ix1 p)).trans ?_
  exact congrArg (init (Shape.Idx.first hu) + ·) (Finset.sum_congr rfl fun k _ => congrArg x (Cert.Attn.Layout.lift_row h p k))

/-- The word of 1.0 is the extended real 1. -/
theorem ofBits_one_f32 : Ideal.ofBits .f32 0x3F800000#32 = 1 := IdealRules.sign_bit.ideal_onePat .f32

/-- The unit as the host writes it — x where x > 0, else 1 · (exp x' - 1) with x' = 0 where x > 0 and x elsewhere —
    is the unit. -/
theorem hostElu_eq (x : EReal) :
    Scalar.select (Ideal.cmp .ogt x (Ideal.ofBits .f32 0x00000000#32)) x
        (Ideal.ofBits .f32 0x3F800000#32 *
          (Ideal.exp (Scalar.select (Ideal.cmp .ogt x (Ideal.ofBits .f32 0x00000000#32)) (Ideal.ofBits .f32 0x00000000#32) x) - 1))
      = elu x := by
  unfold elu
  rcases BitVec.eq_zero_or_eq_one (Ideal.cmp .ogt x (Ideal.ofBits .f32 0x00000000#32)) with h | h
  · rw [h, select_zero, select_zero, select_zero, ofBits_one_f32, one_mul]
  · rw [h, select_one, select_one]

/-- The reference's rows with the bias added, at (p, k). -/
theorem hostBiased_apply (a : (⟨2, ![50000, 128]⟩ : Shape).Idx → EReal) (b : (⟨1, ![128]⟩ : Shape).Idx → EReal)
    (p : Fin 50000) (k : Fin 128) :
    Cert.ReferenceIdeal.Stages.biased (F := Ideal) a b (ix2 p k) = a (ix2 p k) + b (ix1 k) := by
  unfold Cert.ReferenceIdeal.Stages.biased
  rw [addf_apply, broadcastInDim_oneRow_apply, bcastRow_apply]

/-- The reference's column of row means, at row p: the mean of the row. -/
theorem hostMean_apply (v : (⟨2, ![50000, 128]⟩ : Shape).Idx → EReal) (p : Fin 50000) (u : Fin 1) :
    Cert.ReferenceIdeal.Stages.rowMean (F := Ideal) v (ix2 p u) = rowMean (fun k => v (ix2 p k)) := by
  unfold Cert.ReferenceIdeal.Stages.rowMean rowMean
  beta_reduce
  rw [hostDivf_apply, bcastCol_apply, hostRowSum_apply]
  show Ideal.div (Ideal.ofBits .f32 0x00000000#32 + _) (Ideal.ofBits .f32 0x43000000#32) = _
  rw [Ideal.ofBits_zero_f32, zero_add]

/-- The reference's column of reciprocal standard deviations, at row p. -/
theorem hostRstd_apply (v : (⟨2, ![50000, 128]⟩ : Shape).Idx → EReal) (p : Fin 50000) (u : Fin 1) :
    Cert.ReferenceIdeal.Stages.rowRstd (F := Ideal) v (ix2 p u)
      = Ideal.rsqrt (rowVar (fun k => v (ix2 p k)) + Ideal.ofBits .f32 0x3727C5AC#32) := by
  unfold Cert.ReferenceIdeal.Stages.rowRstd rowVar
  beta_reduce
  rw [hostRsqrt_apply, addf_apply, hostDivf_apply, bcastCol_apply, hostRowSum_apply]
  show Ideal.rsqrt (Ideal.div (Ideal.ofBits .f32 0x00000000#32 + ∑ k : Fin 128, _) (Ideal.ofBits .f32 0x43000000#32)
    + Ideal.ofBits .f32 0x3727C5AC#32) = _
  rw [Ideal.ofBits_zero_f32, zero_add]
  refine congrArg (fun s => Ideal.rsqrt (Ideal.div s (Ideal.ofBits .f32 0x43000000#32) + Ideal.ofBits .f32 0x3727C5AC#32))
    (Finset.sum_congr rfl fun k _ => ?_)
  rw [mulf_apply, subf_apply, bcastColTo_apply, hostMean_apply]

/-- The reference's normalised, scaled and shifted rows, at (p, q). -/
theorem hostNormed_apply (v : (⟨2, ![50000, 128]⟩ : Shape).Idx → EReal) (g be : (⟨1, ![128]⟩ : Shape).Idx → EReal)
    (p : Fin 50000) (q : Fin 128) :
    Cert.ReferenceIdeal.Stages.normed (F := Ideal) v g be (ix2 p q)
      = rowNormed (fun k => v (ix2 p k)) (fun k => g (ix1 k)) (fun k => be (ix1 k)) q := by
  unfold Cert.ReferenceIdeal.Stages.normed rowNormed
  rw [addf_apply, mulf_apply, mulf_apply, subf_apply, bcastColTo_apply, bcastColTo_apply, hostMean_apply, hostRstd_apply,
    broadcastInDim_oneRow_apply, bcastRow_apply, broadcastInDim_oneRow_apply, bcastRow_apply]

/-- The reference's unit, at any index. -/
theorem hostEluOf_apply (x : (⟨2, ![50000, 128]⟩ : Shape).Idx → EReal) (i : (⟨2, ![50000, 128]⟩ : Shape).Idx) :
    Cert.ReferenceIdeal.Stages.eluOf (F := Ideal) x i = elu (x i) :=
  hostElu_eq (x i)

/-- THE REFERENCE'S DENSE TAIL OF A LAYER IS THE SPECIFICATION. -/
theorem lnelu_eq (a : (⟨2, ![50000, 128]⟩ : Shape).Idx → EReal) (b g be : (⟨1, ![128]⟩ : Shape).Idx → EReal) :
    Cert.ReferenceIdeal.Stages.lnelu (F := Ideal) a b g be = LNELU a b g be := by
  funext i
  obtain ⟨p, q, rfl⟩ : ∃ (p : Fin 50000) (q : Fin 128), i = ix2 p q := ⟨i 0, i 1, eq_ix2 i⟩
  rw [LNELU_apply]
  unfold Cert.ReferenceIdeal.Stages.lnelu lnElu
  rw [hostEluOf_apply, hostNormed_apply]
  exact congrArg elu (congrArg (fun v => rowNormed v (fun k => g (ix1 k)) (fun k => be (ix1 k)) q)
    (funext fun k => hostBiased_apply a b p k))

end Cert.KernelIdeal.LN

end
-- ==== Proof.KerValue.lean ====
/-
  The kernel program's result buffer, followed back through its eleven segments to the arguments: the four regions'
  output arrays are the matrix products and the normalised, ELU-activated rows of the arrays they were entered with, the
  host stretches between them are the edge table's rows and the aggregation, and every other buffer passes through
  the segments that do not write it.  Composed, the result is the two layers' function of the arguments.
-/
import proofs.«120394_j25486335934641_1_alg».proof.Proof.KerRun
import proofs.«120394_j25486335934641_1_alg».proof.Proof.MatmulBlocks
import proofs.«120394_j25486335934641_1_alg».proof.Proof.LayerNormElu
import proofs.«120394_j25486335934641_1_alg».proof.Proof.LayerNormEluRef
import Idealize.ShloMosaic.Lib.ValueLayout

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.ValueIdx
open Idealize.ShloMosaic.StableHlo (after)
open Cert.ReferenceIdeal.Stages (srcOf dstOf dot1 dot2 aggOf lnelu layer1 layer2)

variable (m : (ℓ : Loc nD τ sig) → Buf (Elt Ideal) ℓ) (ρ : Dev nD → PrngReg) (c : Dev nD)

/-! ## After the first stretch: the edge table's rows -/

theorem W1_v1 : W1 m ρ c (main_v1 : DevRef τ sig) = srcOf (m ((c : Thread nD τ).loc main_arg9)) := stretch0_v1 (W0 m ρ c)
theorem W1_v3 : W1 m ρ c (main_v3 : DevRef τ sig) = dstOf (m ((c : Thread nD τ).loc main_arg9)) := stretch0_v3 (W0 m ρ c)
theorem W1_arg0 : W1 m ρ c (main_arg0 : DevRef τ sig) = (m ((c : Thread nD τ).loc main_arg0)) := stretch0_keeps_arg0 (W0 m ρ c)
theorem W1_arg1 : W1 m ρ c (main_arg1 : DevRef τ sig) = (m ((c : Thread nD τ).loc main_arg1)) := stretch0_keeps_arg1 (W0 m ρ c)
theorem W1_arg2 : W1 m ρ c (main_arg2 : DevRef τ sig) = (m ((c : Thread nD τ).loc main_arg2)) := stretch0_keeps_arg2 (W0 m ρ c)
theorem W1_arg3 : W1 m ρ c (main_arg3 : DevRef τ sig) = (m ((c : Thread nD τ).loc main_arg3)) := stretch0_keeps_arg3 (W0 m ρ c)
theorem W1_arg4 : W1 m ρ c (main_arg4 : DevRef τ sig) = (m ((c : Thread nD τ).loc main_arg4)) := stretch0_keeps_arg4 (W0 m ρ c)
theorem W1_arg5 : W1 m ρ c (main_arg5 : DevRef τ sig) = (m ((c : Thread nD τ).loc main_arg5)) := stretch0_keeps_arg5 (W0 m ρ c)
theorem W1_arg6 : W1 m ρ c (main_arg6 : DevRef τ sig) = (m ((c : Thread nD τ).loc main_arg6)) := stretch0_keeps_arg6 (W0 m ρ c)
theorem W1_arg7 : W1 m ρ c (main_arg7 : DevRef τ sig) = (m ((c : Thread nD τ).loc main_arg7)) := stretch0_keeps_arg7 (W0 m ρ c)
theorem W1_arg8 : W1 m ρ c (main_arg8 : DevRef τ sig) = (m ((c : Thread nD τ).loc main_arg8)) := stretch0_keeps_arg8 (W0 m ρ c)

/-! ## After the first product -/

theorem W2_v4 : W2 m ρ c (main_v4 : DevRef τ sig) = dot1 (m ((c : Thread nD τ).loc main_arg0)) (m ((c : Thread nD τ).loc main_arg1)) := by
  refine (W2_arr m ρ c 2).trans ((MM.final0 (V1 m ρ) c).trans ?_)
  show MM.MM256 (W1 m ρ c (main_arg0 : DevRef τ sig)) (W1 m ρ c (main_arg1 : DevRef τ sig)) = _
  rw [W1_arg0, W1_arg1]
  exact (MM.ref_dot256 _ _).symm
theorem W2_v1 : W2 m ρ c (main_v1 : DevRef τ sig) = srcOf (m ((c : Thread nD τ).loc main_arg9)) := (W2_of_ne m ρ c main_v1 (by decide)).trans (W1_v1 m ρ c)
theorem W2_v3 : W2 m ρ c (main_v3 : DevRef τ sig) = dstOf (m ((c : Thread nD τ).loc main_arg9)) := (W2_of_ne m ρ c main_v3 (by decide)).trans (W1_v3 m ρ c)
theorem W2_arg2 : W2 m ρ c (main_arg2 : DevRef τ sig) = (m ((c : Thread nD τ).loc main_arg2)) := (W2_of_ne m ρ c main_arg2 (by decide)).trans (W1_arg2 m ρ c)
theorem W2_arg3 : W2 m ρ c (main_arg3 : DevRef τ sig) = (m ((c : Thread nD τ).loc main_arg3)) := (W2_of_ne m ρ c main_arg3 (by decide)).trans (W1_arg3 m ρ c)
theorem W2_arg4 : W2 m ρ c (main_arg4 : DevRef τ sig) = (m ((c : Thread nD τ).loc main_arg4)) := (W2_of_ne m ρ c main_arg4 (by decide)).trans (W1_arg4 m ρ c)
theorem W2_arg5 : W2 m ρ c (main_arg5 : DevRef τ sig) = (m ((c : Thread nD τ).loc main_arg5)) := (W2_of_ne m ρ c main_arg5 (by decide)).trans (W1_arg5 m ρ c)
theorem W2_arg6 : W2 m ρ c (main_arg6 : DevRef τ sig) = (m ((c : Thread nD τ).loc main_arg6)) := (W2_of_ne m ρ c main_arg6 (by decide)).trans (W1_arg6 m ρ c)
theorem W2_arg7 : W2 m ρ c (main_arg7 : DevRef τ sig) = (m ((c : Thread nD τ).loc main_arg7)) := (W2_of_ne m ρ c main_arg7 (by decide)).trans (W1_arg7 m ρ c)
theorem W2_arg8 : W2 m ρ c (main_arg8 : DevRef τ sig) = (m ((c : Thread nD τ).loc main_arg8)) := (W2_of_ne m ρ c main_arg8 (by decide)).trans (W1_arg8 m ρ c)

/-! ## After the first aggregation -/

theorem W5_v43 : W5 m ρ c (main_v43 : DevRef τ sig) = (aggOf (dot1 (m ((c : Thread nD τ).loc main_arg0)) (m ((c : Thread nD τ).loc main_arg1))) (srcOf (m ((c : Thread nD τ).loc main_arg9))) (dstOf (m ((c : Thread nD τ).loc main_arg9)))) := by
  refine (stretch1_v43 (W2 m ρ c)).trans ?_
  rw [W2_v4, W2_v1, W2_v3]
theorem W5_v44 : W5 m ρ c (main_v44 : DevRef τ sig) = shapeCast S1x128 (m ((c : Thread nD τ).loc main_arg2)) shapeCasts_S128_S1x128 := by
  refine (stretch1_v44 (W2 m ρ c)).trans ?_
  rw [W2_arg2]
theorem W5_v45 : W5 m ρ c (main_v45 : DevRef τ sig) = shapeCast S1x128 (m ((c : Thread nD τ).loc main_arg3)) shapeCasts_S128_S1x128 := by
  refine (stretch1_v45 (W2 m ρ c)).trans ?_
  rw [W2_arg3]
theorem W5_v46 : W5 m ρ c (main_v46 : DevRef τ sig) = shapeCast S1x128 (m ((c : Thread nD τ).loc main_arg4)) shapeCasts_S128_S1x128 := by
  refine (stretch1_v46 (W2 m ρ c)).trans ?_
  rw [W2_arg4]
theorem W5_v1 : W5 m ρ c (main_v1 : DevRef τ sig) = srcOf (m ((c : Thread nD τ).loc main_arg9)) := (stretch1_keeps_v1 (W2 m ρ c)).trans (W2_v1 m ρ c)
theorem W5_v3 : W5 m ρ c (main_v3 : DevRef τ sig) = dstOf (m ((c : Thread nD τ).loc main_arg9)) := (stretch1_keeps_v3 (W2 m ρ c)).trans (W2_v3 m ρ c)
theorem W5_arg5 : W5 m ρ c (main_arg5 : DevRef τ sig) = (m ((c : Thread nD τ).loc main_arg5)) := (stretch1_keeps_arg5 (W2 m ρ c)).trans (W2_arg5 m ρ c)
theorem W5_arg6 : W5 m ρ c (main_arg6 : DevRef τ sig) = (m ((c : Thread nD τ).loc main_arg6)) := (stretch1_keeps_arg6 (W2 m ρ c)).trans (W2_arg6 m ρ c)
theorem W5_arg7 : W5 m ρ c (main_arg7 : DevRef τ sig) = (m ((c : Thread nD τ).loc main_arg7)) := (stretch1_keeps_arg7 (W2 m ρ c)).trans (W2_arg7 m ρ c)
theorem W5_arg8 : W5 m ρ c (main_arg8 : DevRef τ sig) = (m ((c : Thread nD τ).loc main_arg8)) := (stretch1_keeps_arg8 (W2 m ρ c)).trans (W2_arg8 m ρ c)

/-! ## After the first normalisation: the first layer's output -/

theorem W6_v47 : W6 m ρ c (main_v47 : DevRef τ sig) = (lnelu (aggOf (dot1 (m ((c : Thread nD τ).loc main_arg0)) (m ((c : Thread nD τ).loc main_arg1))) (srcOf (m ((c : Thread nD τ).loc main_arg9))) (dstOf (m ((c : Thread nD τ).loc main_arg9)))) (m ((c : Thread nD τ).loc main_arg2)) (m ((c : Thread nD τ).loc main_arg3)) (m ((c : Thread nD τ).loc main_arg4))) := by
  have hb : ∀ (u : Fin 1) (q : Fin 128), (V5 m ρ c (Pipeline.arrRef spec1 1) : (⟨2, ![1, 128]⟩ : Shape).Idx → EReal) (ix2 u q) = (m ((c : Thread nD τ).loc main_arg2)) (ix1 q) := (fun u q => by
    show W5 m ρ c (main_v44 : DevRef τ sig) (ix2 u q) = _
    rw [W5_v44]; exact shapeCast_a_1a_apply _ _ u q)
  have hg : ∀ (u : Fin 1) (q : Fin 128), (V5 m ρ c (Pipeline.arrRef spec1 2) : (⟨2, ![1, 128]⟩ : Shape).Idx → EReal) (ix2 u q) = (m ((c : Thread nD τ).loc main_arg3)) (ix1 q) := (fun u q => by
    show W5 m ρ c (main_v45 : DevRef τ sig) (ix2 u q) = _
    rw [W5_v45]; exact shapeCast_a_1a_apply _ _ u q)
  have hbe : ∀ (u : Fin 1) (q : Fin 128), (V5 m ρ c (Pipeline.arrRef spec1 3) : (⟨2, ![1, 128]⟩ : Shape).Idx → EReal) (ix2 u q) = (m ((c : Thread nD τ).loc main_arg4)) (ix1 q) := (fun u q => by
    show W5 m ρ c (main_v46 : DevRef τ sig) (ix2 u q) = _
    rw [W5_v46]; exact shapeCast_a_1a_apply _ _ u q)
  refine (W6_arr m ρ c 4).trans ((LN.final1 (V5 m ρ) c _ _ _ hb hg hbe).trans ?_)
  show LN.LNELU (W5 m ρ c (main_v43 : DevRef τ sig)) _ _ _ = _
  rw [W5_v43]
  exact (LN.lnelu_eq _ _ _ _).symm
theorem W6_v1 : W6 m ρ c (main_v1 : DevRef τ sig) = srcOf (m ((c : Thread nD τ).loc main_arg9)) := (W6_of_ne m ρ c main_v1 (by decide)).trans (W5_v1 m ρ c)
theorem W6_v3 : W6 m ρ c (main_v3 : DevRef τ sig) = dstOf (m ((c : Thread nD τ).loc main_arg9)) := (W6_of_ne m ρ c main_v3 (by decide)).trans (W5_v3 m ρ c)
theorem W6_arg5 : W6 m ρ c (main_arg5 : DevRef τ sig) = (m ((c : Thread nD τ).loc main_arg5)) := (W6_of_ne m ρ c main_arg5 (by decide)).trans (W5_arg5 m ρ c)
theorem W6_arg6 : W6 m ρ c (main_arg6 : DevRef τ sig) = (m ((c : Thread nD τ).loc main_arg6)) := (W6_of_ne m ρ c main_arg6 (by decide)).trans (W5_arg6 m ρ c)
theorem W6_arg7 : W6 m ρ c (main_arg7 : DevRef τ sig) = (m ((c : Thread nD τ).loc main_arg7)) := (W6_of_ne m ρ c main_arg7 (by decide)).trans (W5_arg7 m ρ c)
theorem W6_arg8 : W6 m ρ c (main_arg8 : DevRef τ sig) = (m ((c : Thread nD τ).loc main_arg8)) := (W6_of_ne m ρ c main_arg8 (by decide)).trans (W5_arg8 m ρ c)

/-! ## After the second product -/

theorem W7_v48 : W7 m ρ c (main_v48 : DevRef τ sig) = dot2 (lnelu (aggOf (dot1 (m ((c : Thread nD τ).loc main_arg0)) (m ((c : Thread nD τ).loc main_arg1))) (srcOf (m ((c : Thread nD τ).loc main_arg9))) (dstOf (m ((c : Thread nD τ).loc main_arg9)))) (m ((c : Thread nD τ).loc main_arg2)) (m ((c : Thread nD τ).loc main_arg3)) (m ((c : Thread nD τ).loc main_arg4))) (m ((c : Thread nD τ).loc main_arg5)) := by
  refine (W7_arr m ρ c 2).trans ((MM.final2 (V6 m ρ) c).trans ?_)
  show MM.MM128 (W6 m ρ c (main_v47 : DevRef τ sig)) (W6 m ρ c (main_arg5 : DevRef τ sig)) = _
  rw [W6_v47, W6_arg5]
  exact (MM.ref_dot128 _ _).symm
theorem W7_v47 : W7 m ρ c (main_v47 : DevRef τ sig) = (lnelu (aggOf (dot1 (m ((c : Thread nD τ).loc main_arg0)) (m ((c : Thread nD τ).loc main_arg1))) (srcOf (m ((c : Thread nD τ).loc main_arg9))) (dstOf (m ((c : Thread nD τ).loc main_arg9)))) (m ((c : Thread nD τ).loc main_arg2)) (m ((c : Thread nD τ).loc main_arg3)) (m ((c : Thread nD τ).loc main_arg4))) :=
  (W7_arr m ρ c 0).trans (((dat2 (V6 m ρ) c).arrAt_in 0 rfl _).trans ((A_eq2 (V6 m ρ) c 0).trans (W6_v47 m ρ c)))
theorem W7_v1 : W7 m ρ c (main_v1 : DevRef τ sig) = srcOf (m ((c : Thread nD τ).loc main_arg9)) := (W7_of_ne m ρ c main_v1 (by decide)).trans (W6_v1 m ρ c)
theorem W7_v3 : W7 m ρ c (main_v3 : DevRef τ sig) = dstOf (m ((c : Thread nD τ).loc main_arg9)) := (W7_of_ne m ρ c main_v3 (by decide)).trans (W6_v3 m ρ c)
theorem W7_arg6 : W7 m ρ c (main_arg6 : DevRef τ sig) = (m ((c : Thread nD τ).loc main_arg6)) := (W7_of_ne m ρ c main_arg6 (by decide)).trans (W6_arg6 m ρ c)
theorem W7_arg7 : W7 m ρ c (main_arg7 : DevRef τ sig) = (m ((c : Thread nD τ).loc main_arg7)) := (W7_of_ne m ρ c main_arg7 (by decide)).trans (W6_arg7 m ρ c)
theorem W7_arg8 : W7 m ρ c (main_arg8 : DevRef τ sig) = (m ((c : Thread nD τ).loc main_arg8)) := (W7_of_ne m ρ c main_arg8 (by decide)).trans (W6_arg8 m ρ c)

/-! ## After the second aggregation -/

theorem W10_v87 : W10 m ρ c (main_v87 : DevRef τ sig) = (aggOf (dot2 (lnelu (aggOf (dot1 (m ((c : Thread nD τ).loc main_arg0)) (m ((c : Thread nD τ).loc main_arg1))) (srcOf (m ((c : Thread nD τ).loc main_arg9))) (dstOf (m ((c : Thread nD τ).loc main_arg9)))) (m ((c : Thread nD τ).loc main_arg2)) (m ((c : Thread nD τ).loc main_arg3)) (m ((c : Thread nD τ).loc main_arg4))) (m ((c : Thread nD τ).loc main_arg5))) (srcOf (m ((c : Thread nD τ).loc main_arg9))) (dstOf (m ((c : Thread nD τ).loc main_arg9)))) := by
  refine (stretch3_v87 (W7 m ρ c)).trans ?_
  rw [W7_v48, W7_v1, W7_v3]
theorem W10_v88 : W10 m ρ c (main_v88 : DevRef τ sig) = shapeCast S1x128 (m ((c : Thread nD τ).loc main_arg6)) shapeCasts_S128_S1x128 := by
  refine (stretch3_v88 (W7 m ρ c)).trans ?_
  rw [W7_arg6]
theorem W10_v89 : W10 m ρ c (main_v89 : DevRef τ sig) = shapeCast S1x128 (m ((c : Thread nD τ).loc main_arg7)) shapeCasts_S128_S1x128 := by
  refine (stretch3_v89 (W7 m ρ c)).trans ?_
  rw [W7_arg7]
theorem W10_v90 : W10 m ρ c (main_v90 : DevRef τ sig) = shapeCast S1x128 (m ((c : Thread nD τ).loc main_arg8)) shapeCasts_S128_S1x128 := by
  refine (stretch3_v90 (W7 m ρ c)).trans ?_
  rw [W7_arg8]
theorem W10_v47 : W10 m ρ c (main_v47 : DevRef τ sig) = (lnelu (aggOf (dot1 (m ((c : Thread nD τ).loc main_arg0)) (m ((c : Thread nD τ).loc main_arg1))) (srcOf (m ((c : Thread nD τ).loc main_arg9))) (dstOf (m ((c : Thread nD τ).loc main_arg9)))) (m ((c : Thread nD τ).loc main_arg2)) (m ((c : Thread nD τ).loc main_arg3)) (m ((c : Thread nD τ).loc main_arg4))) := (stretch3_keeps_v47 (W7 m ρ c)).trans (W7_v47 m ρ c)

/-! ## The result -/

/-- The kernel program's result buffer holds the two layers' function of the arguments. -/
theorem kernel_value : W11 m ρ c (main_v91 : DevRef τ sig)
    = layer2 (layer1 (m ((c : Thread nD τ).loc main_arg0)) (m ((c : Thread nD τ).loc main_arg1)) (m ((c : Thread nD τ).loc main_arg2)) (m ((c : Thread nD τ).loc main_arg3)) (m ((c : Thread nD τ).loc main_arg4)) (srcOf (m ((c : Thread nD τ).loc main_arg9))) (dstOf (m ((c : Thread nD τ).loc main_arg9)))) (m ((c : Thread nD τ).loc main_arg5)) (m ((c : Thread nD τ).loc main_arg6)) (m ((c : Thread nD τ).loc main_arg7)) (m ((c : Thread nD τ).loc main_arg8)) (srcOf (m ((c : Thread nD τ).loc main_arg9))) (dstOf (m ((c : Thread nD τ).loc main_arg9))) := by
  have hb : ∀ (u : Fin 1) (q : Fin 128), (V10 m ρ c (Pipeline.arrRef spec3 1) : (⟨2, ![1, 128]⟩ : Shape).Idx → EReal) (ix2 u q) = (m ((c : Thread nD τ).loc main_arg6)) (ix1 q) := (fun u q => by
    show W10 m ρ c (main_v88 : DevRef τ sig) (ix2 u q) = _
    rw [W10_v88]; exact shapeCast_a_1a_apply _ _ u q)
  have hg : ∀ (u : Fin 1) (q : Fin 128), (V10 m ρ c (Pipeline.arrRef spec3 2) : (⟨2, ![1, 128]⟩ : Shape).Idx → EReal) (ix2 u q) = (m ((c : Thread nD τ).loc main_arg7)) (ix1 q) := (fun u q => by
    show W10 m ρ c (main_v89 : DevRef τ sig) (ix2 u q) = _
    rw [W10_v89]; exact shapeCast_a_1a_apply _ _ u q)
  have hbe : ∀ (u : Fin 1) (q : Fin 128), (V10 m ρ c (Pipeline.arrRef spec3 3) : (⟨2, ![1, 128]⟩ : Shape).Idx → EReal) (ix2 u q) = (m ((c : Thread nD τ).loc main_arg8)) (ix1 q) := (fun u q => by
    show W10 m ρ c (main_v90 : DevRef τ sig) (ix2 u q) = _
    rw [W10_v90]; exact shapeCast_a_1a_apply _ _ u q)
  refine (W11_arr m ρ c 5).trans ((LN.final3 (V10 m ρ) c _ _ _ hb hg hbe).trans ?_)
  show (fun i => LN.LNELU (W10 m ρ c (main_v87 : DevRef τ sig)) _ _ _ i + W10 m ρ c (main_v47 : DevRef τ sig) i) = _
  rw [W10_v87, W10_v47, ← LN.lnelu_eq]
  rfl

end Cert.KernelIdeal.Run

end
-- ==== Proof.lean ====
/-
  The certificate of a two-layer graph convolution: each layer projects the node features by a matrix product,
  aggregates the projected rows over the edges (self loops added, each edge weighted by the inverse square roots of
  its two ends' degrees), adds a bias, normalises each row to zero mean and unit variance, scales and shifts it,
  and applies ELU; the second layer adds the first layer's output back.

  The kernel program runs the two products and the two normalisations as four tiled regions of 25 row blocks each
  and leaves the aggregation to host operations; the reference program is host operations throughout. At the
  extended reals a product computed block by block with a zero accumulator is the whole product, a row's mean and
  variance computed inside its block are the row's, exp x - 1 is the host's expm1 x, and the aggregation is the
  same sequence of host operations in both programs: so both programs end at the same function of the arguments,
  with no finiteness asked of the inputs (sums and products are only re-tiled, never re-associated across an
  infinity).  The three frames are the programs' runs with the result dropped; the idealisation ledger is empty.
-/
import proofs.«120394_j25486335934641_1_alg».proof.Defs
import proofs.«120394_j25486335934641_1_alg».proof.Proof.Gen.Kernel
import proofs.«120394_j25486335934641_1_alg».proof.Proof.Gen.Kernel.Frame
import proofs.«120394_j25486335934641_1_alg».proof.Proof.Gen.KernelIdeal
import proofs.«120394_j25486335934641_1_alg».proof.Proof.Gen.KernelIdeal.Frame
import proofs.«120394_j25486335934641_1_alg».proof.Proof.Gen.ReferenceIdeal
import proofs.«120394_j25486335934641_1_alg».proof.Proof.Gen.Pre_finite_inputs
import proofs.«120394_j25486335934641_1_alg».proof.Proof.RefRun
import proofs.«120394_j25486335934641_1_alg».proof.Proof.KerValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealised kernel program runs and keeps its arguments. -/
theorem frame_ki : Cert.frame_KernelIdeal := fun m ρ _ => Cert.KernelIdeal.Gen.frame m ρ

/-- The reference program runs and keeps its arguments: no operation writes an argument's buffer. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Stages.ops_keeps_arg0 _),
     (h c Cert.ReferenceIdeal.main_arg1).trans (Cert.ReferenceIdeal.Stages.ops_keeps_arg1 _),
     (h c Cert.ReferenceIdeal.main_arg2).trans (Cert.ReferenceIdeal.Stages.ops_keeps_arg2 _),
     (h c Cert.ReferenceIdeal.main_arg3).trans (Cert.ReferenceIdeal.Stages.ops_keeps_arg3 _),
     (h c Cert.ReferenceIdeal.main_arg4).trans (Cert.ReferenceIdeal.Stages.ops_keeps_arg4 _),
     (h c Cert.ReferenceIdeal.main_arg5).trans (Cert.ReferenceIdeal.Stages.ops_keeps_arg5 _),
     (h c Cert.ReferenceIdeal.main_arg6).trans (Cert.ReferenceIdeal.Stages.ops_keeps_arg6 _),
     (h c Cert.ReferenceIdeal.main_arg7).trans (Cert.ReferenceIdeal.Stages.ops_keeps_arg7 _),
     (h c Cert.ReferenceIdeal.main_arg8).trans (Cert.ReferenceIdeal.Stages.ops_keeps_arg8 _),
     (h c Cert.ReferenceIdeal.main_arg9).trans (Cert.ReferenceIdeal.Stages.ops_keeps_arg9 _)⟩)
    (Cert.ReferenceIdeal.Stages.run_all (F := Ideal) m ρ)

/-- Both idealised programs end, from memories agreeing on the arguments, with the two layers' function of the
    arguments in their result buffers. -/
theorem algebraic : Cert.algebraic_KernelIdeal_ReferenceIdeal := by
  intro m ρ m' ρ' _ hagree
  refine ⟨fun c => Cert.ReferenceIdeal.Stages.layer2 (F := Ideal) (Cert.ReferenceIdeal.Stages.layer1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (Cert.ReferenceIdeal.Stages.srcOf (m ((c.tc : Thread Cert.KernelIdeal.nD Cert.KernelIdeal.τ).loc Cert.KernelIdeal.main_arg9))) (Cert.ReferenceIdeal.Stages.dstOf (m ((c.tc : Thread Cert.KernelIdeal.nD Cert.KernelIdeal.τ).loc Cert.KernelIdeal.main_arg9)))) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.ReferenceIdeal.Stages.srcOf (m ((c.tc : Thread Cert.KernelIdeal.nD Cert.KernelIdeal.τ).loc Cert.KernelIdeal.main_arg9))) (Cert.ReferenceIdeal.Stages.dstOf (m ((c.tc : Thread Cert.KernelIdeal.nD Cert.KernelIdeal.τ).loc Cert.KernelIdeal.main_arg9))), ?_, ?_⟩
  · refine (θ_run Cert.KernelIdeal.defs _ _).mono (fun r h c => ?_) (Cert.KernelIdeal.Run.run_all (F := Ideal) m ρ)
    exact ⟨(h c _ (Cert.KernelIdeal.Gen.mem_uc Cert.KernelIdeal.main_v91 (by decide))).trans (Cert.KernelIdeal.Run.kernel_value m ρ c),
      (h c _ (Cert.KernelIdeal.Gen.mem_uc Cert.KernelIdeal.main_arg0 (by decide))).trans (Cert.KernelIdeal.Gen.W11_main_arg0 m ρ c),
      (h c _ (Cert.KernelIdeal.Gen.mem_uc Cert.KernelIdeal.main_arg1 (by decide))).trans (Cert.KernelIdeal.Gen.W11_main_arg1 m ρ c),
      (h c _ (Cert.KernelIdeal.Gen.mem_uc Cert.KernelIdeal.main_arg2 (by decide))).trans (Cert.KernelIdeal.Gen.W11_main_arg2 m ρ c),
      (h c _ (Cert.KernelIdeal.Gen.mem_uc Cert.KernelIdeal.main_arg3 (by decide))).trans (Cert.KernelIdeal.Gen.W11_main_arg3 m ρ c),
      (h c _ (Cert.KernelIdeal.Gen.mem_uc Cert.KernelIdeal.main_arg4 (by decide))).trans (Cert.KernelIdeal.Gen.W11_main_arg4 m ρ c),
      (h c _ (Cert.KernelIdeal.Gen.mem_uc Cert.KernelIdeal.main_arg5 (by decide))).trans (Cert.KernelIdeal.Gen.W11_main_arg5 m ρ c),
      (h c _ (Cert.KernelIdeal.Gen.mem_uc Cert.KernelIdeal.main_arg6 (by decide))).trans (Cert.KernelIdeal.Gen.W11_main_arg6 m ρ c),
      (h c _ (Cert.KernelIdeal.Gen.mem_uc Cert.KernelIdeal.main_arg7 (by decide))).trans (Cert.KernelIdeal.Gen.W11_main_arg7 m ρ c),
      (h c _ (Cert.KernelIdeal.Gen.mem_uc Cert.KernelIdeal.main_arg8 (by decide))).trans (Cert.KernelIdeal.Gen.W11_main_arg8 m ρ c),
      (h c _ (Cert.KernelIdeal.Gen.mem_uc Cert.KernelIdeal.main_arg9 (by decide))).trans (Cert.KernelIdeal.Gen.W11_main_arg9 m ρ c)⟩
  · refine (θ_run Cert.ReferenceIdeal.defs _ _).mono (fun r h c => ?_) (Cert.ReferenceIdeal.Stages.run_all (F := Ideal) m' ρ')
    refine ⟨?_,
     (h c Cert.ReferenceIdeal.main_arg0).trans (Cert.ReferenceIdeal.Stages.ops_keeps_arg0 _),
     (h c Cert.ReferenceIdeal.main_arg1).trans (Cert.ReferenceIdeal.Stages.ops_keeps_arg1 _),
     (h c Cert.ReferenceIdeal.main_arg2).trans (Cert.ReferenceIdeal.Stages.ops_keeps_arg2 _),
     (h c Cert.ReferenceIdeal.main_arg3).trans (Cert.ReferenceIdeal.Stages.ops_keeps_arg3 _),
     (h c Cert.ReferenceIdeal.main_arg4).trans (Cert.ReferenceIdeal.Stages.ops_keeps_arg4 _),
     (h c Cert.ReferenceIdeal.main_arg5).trans (Cert.ReferenceIdeal.Stages.ops_keeps_arg5 _),
     (h c Cert.ReferenceIdeal.main_arg6).trans (Cert.ReferenceIdeal.Stages.ops_keeps_arg6 _),
     (h c Cert.ReferenceIdeal.main_arg7).trans (Cert.ReferenceIdeal.Stages.ops_keeps_arg7 _),
     (h c Cert.ReferenceIdeal.main_arg8).trans (Cert.ReferenceIdeal.Stages.ops_keeps_arg8 _),
     (h c Cert.ReferenceIdeal.main_arg9).trans (Cert.ReferenceIdeal.Stages.ops_keeps_arg9 _)⟩
    refine (h c Cert.ReferenceIdeal.main_v140).trans ?_
    rw [Cert.ReferenceIdeal.Stages.ops_eq, Cert.ReferenceIdeal.Stages.result_eq]
    obtain ⟨e0, e1, e2, e3, e4, e5, e6, e7, e8, e9⟩ := hagree c
    show Cert.ReferenceIdeal.Stages.layer2 (F := Ideal) (Cert.ReferenceIdeal.Stages.layer1 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (Cert.ReferenceIdeal.Stages.srcOf (m' ((c.tc : Thread Cert.ReferenceIdeal.nD Cert.ReferenceIdeal.τ).loc Cert.ReferenceIdeal.main_arg9))) (Cert.ReferenceIdeal.Stages.dstOf (m' ((c.tc : Thread Cert.ReferenceIdeal.nD Cert.ReferenceIdeal.τ).loc Cert.ReferenceIdeal.main_arg9)))) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (Cert.ReferenceIdeal.Stages.srcOf (m' ((c.tc : Thread Cert.ReferenceIdeal.nD Cert.ReferenceIdeal.τ).loc Cert.ReferenceIdeal.main_arg9))) (Cert.ReferenceIdeal.Stages.dstOf (m' ((c.tc : Thread Cert.ReferenceIdeal.nD Cert.ReferenceIdeal.τ).loc Cert.ReferenceIdeal.main_arg9))) = _
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
